-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  IdealRules.truncf_extf.Statement Cert.KernelIdeal.S512x512 .f32 .bf16
  ∧ IdealRules.truncf_extf.Statement Cert.KernelIdeal.S512x512 .f32 .bf16
  ∧ IdealRules.truncf_extf.Statement Cert.KernelIdeal.S1x512 .f32 .bf16
  ∧ IdealRules.truncf_extf.Statement Cert.KernelIdeal.S1x512 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_arg0)) (v1 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_arg0) = v0 c
          ∧ r.2.mem ((c.tc : Thread Cert.KernelIdeal.nD Cert.KernelIdeal.τ).loc Cert.KernelIdeal.main_v2) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_arg0) = v0 c
          ∧ r.2.mem ((c.tc : Thread Cert.ReferenceIdeal.nD Cert.ReferenceIdeal.τ).loc Cert.ReferenceIdeal.main_v35) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x512 : Shape := ⟨2, ![4096, 512]⟩
abbrev S4096x4096 : Shape := ⟨2, ![4096, 4096]⟩
abbrev S512x512 : Shape := ⟨2, ![512, 512]⟩
abbrev S_ : Shape := ⟨0, ![]⟩

class Facts : Prop where
  bcast_S_S4096x512 : S_.BroadcastsInDim S4096x512 (![] : Fin 0 → Fin S4096x512.rank)
  reducesTo_S4096x512_S_d0_1 : S4096x512.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S512x512 : S_.BroadcastsInDim S512x512 (![] : Fin 0 → Fin S512x512.rank)
  reducesTo_S512x512_S_d0_1 : S512x512.ReducesTo [0, 1] S_

variable [Facts]

def fn_part1 {F : FTy → Type} [FloatOps F] (main_arg4 : FVec F S512x512 .f32) (main_arg5 : FVec F S512x512 .f32) (main_v13 : IVec S_ 1) (main_v16 : IVec S4096x4096 1) : IVec S_ 1 :=
  let main_c_5 : IVec S_ 1 := constantI S_ 1 1#1
  let main_v17 : IVec S_ 1 := (fun x v => Host.reduce IntOp.andi x v reducesTo_S4096x4096_S_d0_1 h_S_) main_v16 main_c_5
  let main_v18 : IVec S_ 1 := andi main_v13 main_v17
  let main_v19 : FVec F S512x512 .f32 := Host.absf main_arg4
  let main_cst_6 : FVec F S_ .f32 := constant S_ .f32 0x7F800000#32
  let main_v20 : FVec F S512x512 .f32 := broadcastInDim S512x512 ![] bcast_S_S512x512 main_cst_6
  let main_v21 : IVec S512x512 1 := cmpf .olt main_v19 main_v20
  let main_c_7 : IVec S_ 1 := constantI S_ 1 1#1
  let main_v22 : IVec S_ 1 := (fun x v => Host.reduce IntOp.andi x v reducesTo_S512x512_S_d0_1 h_S_) main_v21 main_c_7
  let main_v23 : IVec S_ 1 := andi main_v18 main_v22
  let main_v24 : FVec F S512x512 .f32 := Host.absf main_arg5
  let main_cst_8 : FVec F S_ .f32 := constant S_ .f32 0x7F800000#32
  let main_v25 : FVec F S512x512 .f32 := broadcastInDim S512x512 ![] bcast_S_S512x512 main_cst_8
  let main_v26 : IVec S512x512 1 := cmpf .olt main_v24 main_v25
  let main_c_9 : IVec S_ 1 := constantI S_ 1 1#1
  let main_v27 : IVec S_ 1 := (fun x v => Host.reduce IntOp.andi x v reducesTo_S512x512_S_d0_1 h_S_) main_v26 main_c_9
  let main_v28 : IVec S_ 1 := andi main_v23 main_v27
  main_v28

def fn {F : FTy → Type} [FloatOps F] (main_arg0 : FVec F S4096x512 .f32) (main_arg1 : FVec F S4096x512 .f32) (main_arg2 : FVec F S4096x4096 .f32) (main_arg3 : FVec F S4096x4096 .f32) (main_arg4 : FVec F S512x512 .f32) (main_arg5 : FVec F S512x512 .f32) : IVec S_ 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_c : IVec S_ 1 := constantI S_ 1 1#1
  let main_v3 : IVec S_ 1 := (fun x v => Host.reduce IntOp.andi x v reducesTo_S4096x512_S_d0_1 h_S_) main_v2 main_c
  let main_v4 : FVec F S4096x512 .f32 := Host.absf main_arg1
  let main_cst_0 : FVec F S_ .f32 := constant S_ .f32 0x7F800000#32
  let main_v5 : FVec F S4096x512 .f32 := broadcastInDim S4096x512 ![] bcast_S_S4096x512 main_cst_0
  let main_v6 : IVec S4096x512 1 := cmpf .olt main_v4 main_v5
  let main_c_1 : IVec S_ 1 := constantI S_ 1 1#1
  let main_v7 : IVec S_ 1 := (fun x v => Host.reduce IntOp.andi x v reducesTo_S4096x512_S_d0_1 h_S_) main_v6 main_c_1
  let main_v8 : IVec S_ 1 := andi main_v3 main_v7
  let main_v9 : FVec F S4096x4096 .f32 := Host.absf main_arg2
  let main_cst_2 : FVec F S_ .f32 := constant S_ .f32 0x7F800000#32
  let main_v10 : FVec F S4096x4096 .f32 := broadcastInDim S4096x4096 ![] bcast_S_S4096x4096 main_cst_2
  let main_v11 : IVec S4096x4096 1 := cmpf .olt main_v9 main_v10
  let main_c_3 : IVec S_ 1 := constantI S_ 1 1#1
  let main_v12 : IVec S_ 1 := (fun x v => Host.reduce IntOp.andi x v reducesTo_S4096x4096_S_d0_1 h_S_) main_v11 main_c_3
  let main_v13 : IVec S_ 1 := andi main_v8 main_v12
  let main_v14 : FVec F S4096x4096 .f32 := Host.absf main_arg3
  let main_cst_4 : FVec F S_ .f32 := constant S_ .f32 0x7F800000#32
  let main_v15 : FVec F S4096x4096 .f32 := broadcastInDim S4096x4096 ![] bcast_S_S4096x4096 main_cst_4
  let main_v16 : IVec S4096x4096 1 := cmpf .olt main_v14 main_v15
  fn_part1 (F := F) main_arg4 main_arg5 main_v13 main_v16
-- ==== Kernel.lean ====
abbrev S4096x512 : Shape := ⟨2, ![4096, 512]⟩
abbrev S4096x4096 : Shape := ⟨2, ![4096, 4096]⟩
abbrev S512x512 : Shape := ⟨2, ![512, 512]⟩
abbrev S8x1x512 : Shape := ⟨3, ![8, 1, 512]⟩
abbrev S512x4096 : Shape := ⟨2, ![512, 4096]⟩
abbrev S1x1x512 : Shape := ⟨3, ![1, 1, 512]⟩
abbrev S512 : Shape := ⟨1, ![512]⟩
abbrev S1x512 : Shape := ⟨2, ![1, 512]⟩
abbrev S512x1 : Shape := ⟨2, ![512, 1]⟩

abbrev nBuf : Space → Nat
  | .hbm => 13
  | .vmem => 32
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x4096, .f32⟩
  | .hbm, ⟨3, _⟩ => ⟨S4096x4096, .f32⟩
  | .hbm, ⟨4, _⟩ => ⟨S512x512, .f32⟩
  | .hbm, ⟨5, _⟩ => ⟨S512x512, .f32⟩
  | .hbm, ⟨6, _⟩ => ⟨S4096x512, .bf16⟩
  | .hbm, ⟨7, _⟩ => ⟨S4096x512, .bf16⟩
  | .hbm, ⟨8, _⟩ => ⟨S4096x512, .f32⟩
  | .hbm, ⟨9, _⟩ => ⟨S4096x512, .f32⟩
  | .hbm, ⟨10, _⟩ => ⟨S8x1x512, .f32⟩
  | .hbm, ⟨11, _⟩ => ⟨S8x1x512, .f32⟩
  | .hbm, ⟨12, _⟩ => ⟨S4096x512, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S512x4096, .f32⟩
  | .local _ .vmem, ⟨11, _⟩ => ⟨S512x4096, .f32⟩
  | .local _ .vmem, ⟨12, _⟩ => ⟨S512x4096, .f32⟩
  | .local _ .vmem, ⟨13, _⟩ => ⟨S512x4096, .f32⟩
  | .local _ .vmem, ⟨14, _⟩ => ⟨S4096x512, .bf16⟩
  | .local _ .vmem, ⟨15, _⟩ => ⟨S4096x512, .bf16⟩
  | .local _ .vmem, ⟨16, _⟩ => ⟨S512x512, .f32⟩
  | .local _ .vmem, ⟨17, _⟩ => ⟨S512x512, .f32⟩
  | .local _ .vmem, ⟨18, _⟩ => ⟨S512x512, .f32⟩
  | .local _ .vmem, ⟨19, _⟩ => ⟨S512x512, .f32⟩
  | .local _ .vmem, ⟨20, _⟩ => ⟨S1x1x512, .f32⟩
  | .local _ .vmem, ⟨21, _⟩ => ⟨S1x1x512, .f32⟩
  | .local _ .vmem, ⟨22, _⟩ => ⟨S1x1x512, .f32⟩
  | .local _ .vmem, ⟨23, _⟩ => ⟨S1x1x512, .f32⟩
  | .local _ .vmem, ⟨24, _⟩ => ⟨S512x512, .f32⟩
  | .local _ .vmem, ⟨25, _⟩ => ⟨S512x512, .f32⟩
  | .local _ .vmem, ⟨26, _⟩ => ⟨S512x512, .f32⟩
  | .local _ .vmem, ⟨27, _⟩ => ⟨S512x512, .f32⟩
  | .local _ .vmem, ⟨28, _⟩ => ⟨S8x1x512, .f32⟩
  | .local _ .vmem, ⟨29, _⟩ => ⟨S8x1x512, .f32⟩
  | .local _ .vmem, ⟨30, _⟩ => ⟨S512x512, .f32⟩
  | .local _ .vmem, ⟨31, _⟩ => ⟨S512x512, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v1_0 : Ref sig .tc := ⟨.hbm, 8, rfl⟩
abbrev main_v1_1 : Ref sig .tc := ⟨.hbm, 9, rfl⟩
abbrev main_v1_2 : Ref sig .tc := ⟨.hbm, 10, rfl⟩
abbrev main_v1_3 : Ref sig .tc := ⟨.hbm, 11, rfl⟩
abbrev main_v2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg4_1 : Ref sig .tc := ⟨.vmem, 17, rfl⟩
abbrev cc1_stg5_0 : Ref sig .tc := ⟨.vmem, 18, rfl⟩
abbrev cc1_stg5_1 : Ref sig .tc := ⟨.vmem, 19, rfl⟩
abbrev cc1_stg6_0 : Ref sig .tc := ⟨.vmem, 20, rfl⟩
abbrev cc1_stg6_1 : Ref sig .tc := ⟨.vmem, 21, rfl⟩
abbrev cc1_stg7_0 : Ref sig .tc := ⟨.vmem, 22, rfl⟩
abbrev cc1_stg7_1 : Ref sig .tc := ⟨.vmem, 23, rfl⟩
abbrev cc2_stg0_0 : Ref sig .tc := ⟨.vmem, 24, rfl⟩
abbrev cc2_stg0_1 : Ref sig .tc := ⟨.vmem, 25, rfl⟩
abbrev cc2_stg1_0 : Ref sig .tc := ⟨.vmem, 26, rfl⟩
abbrev cc2_stg1_1 : Ref sig .tc := ⟨.vmem, 27, rfl⟩
abbrev cc2_stg2_0 : Ref sig .tc := ⟨.vmem, 28, rfl⟩
abbrev cc2_stg3_0 : Ref sig .tc := ⟨.vmem, 29, rfl⟩
abbrev cc2_stg4_0 : Ref sig .tc := ⟨.vmem, 30, rfl⟩
abbrev cc2_stg4_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem4_1 : DmaSem sig := 17
abbrev cc1_sem5_0 : DmaSem sig := 18
abbrev cc1_sem5_1 : DmaSem sig := 19
abbrev cc1_sem6_0 : DmaSem sig := 20
abbrev cc1_sem6_1 : DmaSem sig := 21
abbrev cc1_sem7_0 : DmaSem sig := 22
abbrev cc1_sem7_1 : DmaSem sig := 23
abbrev cc2_sem0_0 : DmaSem sig := 24
abbrev cc2_sem0_1 : DmaSem sig := 25
abbrev cc2_sem1_0 : DmaSem sig := 26
abbrev cc2_sem1_1 : DmaSem sig := 27
abbrev cc2_sem2_0 : DmaSem sig := 28
abbrev cc2_sem3_0 : DmaSem sig := 29
abbrev cc2_sem4_0 : DmaSem sig := 30
abbrev cc2_sem4_1 : DmaSem sig := 31

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_7 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S512x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x4096 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S4096x512 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S4096x512 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S512x512 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S512x512 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S1x1x512 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S1x1x512 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_3 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x512 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S512x512 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S8x1x512 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S8x1x512 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S512x512 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

class Facts₀ : Prop where
  inb_S512x512_S512x512_0_0 : ∀ a, (![0, 0] : Fin 2 → Nat) a + S512x512.size a ≤ S512x512.size a
  h_S512x512 : 0 < S512x512.numel
  bitsLt_bf16_f32 : FTy.bits .bf16 < FTy.bits .f32
  packedbf16_S512x512_S512x512_0_0 : (Rect.unit (s := S512x512) ![0, 0] S512x512.size inb_S512x512_S512x512_0_0).PackedRows (EltTy.packing .bf16)
  inb_S512x4096_S512x4096_0_0 : ∀ a, (![0, 0] : Fin 2 → Nat) a + S512x4096.size a ≤ S512x4096.size a
  h_S512x4096 : 0 < S512x4096.numel
  inb_S4096x512_S4096x512_0_0 : ∀ a, (![0, 0] : Fin 2 → Nat) a + S4096x512.size a ≤ S4096x512.size a
  h_S4096x512 : 0 < S4096x512.numel
  shapeCasts_S4096x512_S4096x512 : S4096x512.ShapeCasts S4096x512
  reduces_S512x512_S512 : S512x512.Reduces [0] S512
  shapeCasts_S512_S1x1x512 : S512.ShapeCasts S1x1x512
  inb_S1x1x512_S1x1x512_0_0_0 : ∀ a, (![0, 0, 0] : Fin 3 → Nat) a + S1x1x512.size a ≤ S1x1x512.size a
  h_S1x1x512 : 0 < S1x1x512.numel
  inb_S8x1x512_S8x1x512_0_0_0 : ∀ a, (![0, 0, 0] : Fin 3 → Nat) a + S8x1x512.size a ≤ S8x1x512.size a
  h_S8x1x512 : 0 < S8x1x512.numel
  shapeCasts_S8x1x512_S8x1x512 : S8x1x512.ShapeCasts S8x1x512
  reduces_S8x1x512_S1x512 : S8x1x512.Reduces [0] S1x512
  shapeCasts_S512x512_S512x512 : S512x512.ShapeCasts S512x512
  broadcasts_S1x512_S512x512 : S1x512.Broadcasts S512x512
  reduces_S512x512_S512_2 : S512x512.Reduces [1] S512
  shapeCasts_S512_S512x1 : S512.ShapeCasts S512x1
  broadcasts_S512x1_S512x512 : S512x1.Broadcasts S512x512
  dot_S512x512_S512x512_S512x512_1_0_0_1_n_n_wf : DotDims.WF S512x512 S512x512 S512x512 [1] [0] [0] [1] [] []
  dot_S512x4096_S4096x512_S512x512_1_0_0_1_n_n_wf : DotDims.WF S512x4096 S4096x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S4096x512.size a
  hwx0_0 : ∀ i : grid0.Coords, EltTy.bits .f32 = 32 ∨ (Rect.block (s := S4096x512) S512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S4096x512.size a
  hwx0_1 : ∀ i : grid0.Coords, EltTy.bits .f32 = 32 ∨ (Rect.block (s := S4096x512) S512x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S512x512.size a
  hwx0_2 : ∀ i : grid0.Coords, EltTy.bits .f32 = 32 ∨ (Rect.block (s := S512x512) S512x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S512x512.size a
  hwx0_3 : ∀ i : grid0.Coords, EltTy.bits .f32 = 32 ∨ (Rect.block (s := S512x512) S512x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x512.size a ≤ S4096x512.size a
  hwx0_4 : ∀ i : grid0.Coords, EltTy.bits .bf16 = 32 ∨ (Rect.block (s := S4096x512) S512x512.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x512.size a ≤ S4096x512.size a
  hwx0_5 : ∀ i : grid0.Coords, EltTy.bits .bf16 = 32 ∨ (Rect.block (s := S4096x512) S512x512.size (cc0_transform_5 i) (hinb0_5 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x4096.size a ≤ S4096x4096.size a
  hwx1_0 : ∀ i : grid1.Coords, EltTy.bits .f32 = 32 ∨ (Rect.block (s := S4096x4096) S512x4096.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x4096.size a ≤ S4096x4096.size a
  hwx1_1 : ∀ i : grid1.Coords, EltTy.bits .f32 = 32 ∨ (Rect.block (s := S4096x4096) S512x4096.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S4096x512.size a ≤ S4096x512.size a
  hwx1_2 : ∀ i : grid1.Coords, EltTy.bits .bf16 = 32 ∨ (Rect.block (s := S4096x512) S4096x512.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S4096x512.size a ≤ S4096x512.size a
  hwx1_3 : ∀ i : grid1.Coords, EltTy.bits .bf16 = 32 ∨ (Rect.block (s := S4096x512) S4096x512.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S512x512.size a ≤ S4096x512.size a
  hwx1_4 : ∀ i : grid1.Coords, EltTy.bits .f32 = 32 ∨ (Rect.block (s := S4096x512) S512x512.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S512x512.size a ≤ S4096x512.size a
  hwx1_5 : ∀ i : grid1.Coords, EltTy.bits .f32 = 32 ∨ (Rect.block (s := S4096x512) S512x512.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1x1x512.size a ≤ S8x1x512.size a
  hwx1_6 : ∀ i : grid1.Coords, EltTy.bits .f32 = 32 ∨ (Rect.block (s := S8x1x512) S1x1x512.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S1x1x512.size a ≤ S8x1x512.size a
  hwx1_7 : ∀ i : grid1.Coords, EltTy.bits .f32 = 32 ∨ (Rect.block (s := S8x1x512) S1x1x512.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x512.size a ≤ S4096x512.size a
  hwx2_0 : ∀ i : grid2.Coords, EltTy.bits .f32 = 32 ∨ (Rect.block (s := S4096x512) S512x512.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S512x512.size a ≤ S4096x512.size a
  hwx2_1 : ∀ i : grid2.Coords, EltTy.bits .f32 = 32 ∨ (Rect.block (s := S4096x512) S512x512.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S8x1x512.size a ≤ S8x1x512.size a
  hwx2_2 : ∀ i : grid2.Coords, EltTy.bits .f32 = 32 ∨ (Rect.block (s := S8x1x512) S8x1x512.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S8x1x512.size a ≤ S8x1x512.size a
  hwx2_3 : ∀ i : grid2.Coords, EltTy.bits .f32 = 32 ∨ (Rect.block (s := S8x1x512) S8x1x512.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S512x512.size a ≤ S4096x512.size a
  hwx2_4 : ∀ i : grid2.Coords, EltTy.bits .f32 = 32 ∨ (Rect.block (s := S4096x512) S512x512.size (cc2_transform_4 i) (hinb2_4 i)).WholeWords (EltTy.packing .f32)

variable [Facts₀]

def dot_S512x512_S512x512_S512x512_1_0_0_1_n_n : DotDims S512x512 S512x512 S512x512 where
  lhsContracting := [1]
  rhsContracting := [0]
  lhsNonContracting := [0]
  rhsNonContracting := [1]
  lhsBatch := []
  rhsBatch := []
  wf := dot_S512x512_S512x512_S512x512_1_0_0_1_n_n_wf
def dot_S512x4096_S4096x512_S512x512_1_0_0_1_n_n : DotDims S512x4096 S4096x512 S512x512 where
  lhsContracting := [1]
  rhsContracting := [0]
  lhsNonContracting := [0]
  rhsNonContracting := [1]
  lhsBatch := []
  rhsBatch := []
  wf := dot_S512x4096_S4096x512_S512x512_1_0_0_1_n_n_wf

abbrev win0_0 : Pipeline.Window sig grid0 :=
  Pipeline.Window.ofSpec (Memref.whole main_arg1) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S512x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S512x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0_0) S512x512.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_1) S512x512.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_arg2) S512x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S512x4096.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v0_0) S4096x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v0_1) S4096x512.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v1_0) S512x512.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v1_1) S512x512.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v1_2) S1x1x512.size cc1_transform_6 reads1_6 true false 2 stage1_6 sem1_6
    hrank1 hreads1_6 hinb1_6 nbuf1_6 (Memref.isWhole_whole _) hwx1_6 hstage1_6

abbrev win1_7 : Pipeline.Window sig grid1 :=
  Pipeline.Window.ofSpec (Memref.whole main_v1_3) S1x1x512.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v1_0) S512x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v1_1) S512x512.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v1_2) S8x1x512.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v1_3) S8x1x512.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v2) S512x512.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S4096x512 : Shape := ⟨2, ![4096, 512]⟩
abbrev S4096x4096 : Shape := ⟨2, ![4096, 4096]⟩
abbrev S512x512 : Shape := ⟨2, ![512, 512]⟩
abbrev S_ : Shape := ⟨0, ![]⟩
abbrev S512 : Shape := ⟨1, ![512]⟩
abbrev S1x512 : Shape := ⟨2, ![1, 512]⟩
abbrev S512x4096 : Shape := ⟨2, ![512, 4096]⟩
abbrev S1x4096 : Shape := ⟨2, ![1, 4096]⟩
abbrev S4096x1 : Shape := ⟨2, ![4096, 1]⟩

abbrev nBuf : Space → Nat
  | .hbm => 55
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x4096, .f32⟩
  | .hbm, ⟨3, _⟩ => ⟨S4096x4096, .f32⟩
  | .hbm, ⟨4, _⟩ => ⟨S512x512, .f32⟩
  | .hbm, ⟨5, _⟩ => ⟨S512x512, .f32⟩
  | .hbm, ⟨6, _⟩ => ⟨S4096x512, .f32⟩
  | .hbm, ⟨7, _⟩ => ⟨S4096x512, .f32⟩
  | .hbm, ⟨8, _⟩ => ⟨S4096x512, .f32⟩
  | .hbm, ⟨9, _⟩ => ⟨S4096x512, .f32⟩
  | .hbm, ⟨10, _⟩ => ⟨S_, .f32⟩
  | .hbm, ⟨11, _⟩ => ⟨S512, .f32⟩
  | .hbm, ⟨12, _⟩ => ⟨S1x512, .f32⟩
  | .hbm, ⟨13, _⟩ => ⟨S_, .f32⟩
  | .hbm, ⟨14, _⟩ => ⟨S1x512, .f32⟩
  | .hbm, ⟨15, _⟩ => ⟨S1x512, .f32⟩
  | .hbm, ⟨16, _⟩ => ⟨S512x4096, .f32⟩
  | .hbm, ⟨17, _⟩ => ⟨S1x4096, .f32⟩
  | .hbm, ⟨18, _⟩ => ⟨S1x4096, .f32⟩
  | .hbm, ⟨19, _⟩ => ⟨S1x4096, .f32⟩
  | .hbm, ⟨20, _⟩ => ⟨S_, .f32⟩
  | .hbm, ⟨21, _⟩ => ⟨S1x4096, .f32⟩
  | .hbm, ⟨22, _⟩ => ⟨S1x4096, .f32⟩
  | .hbm, ⟨23, _⟩ => ⟨S_, .f32⟩
  | .hbm, ⟨24, _⟩ => ⟨S1x4096, .f32⟩
  | .hbm, ⟨25, _⟩ => ⟨S1x4096, .f32⟩
  | .hbm, ⟨26, _⟩ => ⟨S4096x1, .f32⟩
  | .hbm, ⟨27, _⟩ => ⟨S4096x512, .f32⟩
  | .hbm, ⟨28, _⟩ => ⟨S4096x512, .f32⟩
  | .hbm, ⟨29, _⟩ => ⟨S_, .f32⟩
  | .hbm, ⟨30, _⟩ => ⟨S512, .f32⟩
  | .hbm, ⟨31, _⟩ => ⟨S1x512, .f32⟩
  | .hbm, ⟨32, _⟩ => ⟨S_, .f32⟩
  | .hbm, ⟨33, _⟩ => ⟨S1x512, .f32⟩
  | .hbm, ⟨34, _⟩ => ⟨S1x512, .f32⟩
  | .hbm, ⟨35, _⟩ => ⟨S512x4096, .f32⟩
  | .hbm, ⟨36, _⟩ => ⟨S1x4096, .f32⟩
  | .hbm, ⟨37, _⟩ => ⟨S1x4096, .f32⟩
  | .hbm, ⟨38, _⟩ => ⟨S1x4096, .f32⟩
  | .hbm, ⟨39, _⟩ => ⟨S_, .f32⟩
  | .hbm, ⟨40, _⟩ => ⟨S1x4096, .f32⟩
  | .hbm, ⟨41, _⟩ => ⟨S1x4096, .f32⟩
  | .hbm, ⟨42, _⟩ => ⟨S_, .f32⟩
  | .hbm, ⟨43, _⟩ => ⟨S1x4096, .f32⟩
  | .hbm, ⟨44, _⟩ => ⟨S1x4096, .f32⟩
  | .hbm, ⟨45, _⟩ => ⟨S4096x1, .f32⟩
  | .hbm, ⟨46, _⟩ => ⟨S4096x512, .f32⟩
  | .hbm, ⟨47, _⟩ => ⟨S4096x512, .f32⟩
  | .hbm, ⟨48, _⟩ => ⟨S4096x512, .f32⟩
  | .hbm, ⟨49, _⟩ => ⟨S_, .f32⟩
  | .hbm, ⟨50, _⟩ => ⟨S4096x512, .f32⟩
  | .hbm, ⟨51, _⟩ => ⟨S4096x512, .f32⟩
  | .hbm, ⟨52, _⟩ => ⟨S_, .f32⟩
  | .hbm, ⟨53, _⟩ => ⟨S4096x512, .f32⟩
  | .hbm, ⟨54, _⟩ => ⟨S4096x512, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_call0_cst : Ref sig .tc := ⟨.hbm, 13, rfl⟩
abbrev main_call0_v0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_0 : Ref sig .tc := ⟨.hbm, 20, rfl⟩
abbrev main_v11 : Ref sig .tc := ⟨.hbm, 21, rfl⟩
abbrev main_v12 : Ref sig .tc := ⟨.hbm, 22, rfl⟩
abbrev main_cst_1 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_2 : Ref sig .tc := ⟨.hbm, 29, rfl⟩
abbrev main_v18 : Ref sig .tc := ⟨.hbm, 30, rfl⟩
abbrev main_v19 : Ref sig .tc := ⟨.hbm, 31, rfl⟩
abbrev main_call1_cst : Ref sig .tc := ⟨.hbm, 32, rfl⟩
abbrev main_call1_v0 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_3 : Ref sig .tc := ⟨.hbm, 39, rfl⟩
abbrev main_v25 : Ref sig .tc := ⟨.hbm, 40, rfl⟩
abbrev main_v26 : Ref sig .tc := ⟨.hbm, 41, rfl⟩
abbrev main_cst_4 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_cst_5 : Ref sig .tc := ⟨.hbm, 49, rfl⟩
abbrev main_v33 : Ref sig .tc := ⟨.hbm, 50, rfl⟩
abbrev main_v34 : Ref sig .tc := ⟨.hbm, 51, rfl⟩
abbrev main_call2_cst : Ref sig .tc := ⟨.hbm, 52, rfl⟩
abbrev main_call2_v0 : Ref sig .tc := ⟨.hbm, 53, rfl⟩
abbrev main_v35 : Ref sig .tc := ⟨.hbm, 54, rfl⟩

abbrev nD : Nat := 1
abbrev τ : Topo := Topo.v7x

variable {F : FTy → Type} [FloatOps F]

class Facts₀ : Prop where
  reducesTo_S4096x512_S512_d0 : S4096x512.ReducesTo [0] S512
  h_S_ : 0 < S_.numel
  bcast_S512_S1x512_1 : S512.BroadcastsInDim S1x512 (![1] : Fin 1 → Fin S1x512.rank)
  bcast_S_S1x512 : S_.BroadcastsInDim S1x512 (![] : Fin 0 → Fin S1x512.rank)
  transposes_S4096x512_S512x4096_1_0 : S4096x512.Transposes [1, 0] S512x4096
  bcast_S_S1x4096 : S_.BroadcastsInDim S1x4096 (![] : Fin 0 → Fin S1x4096.rank)
  transposes_S1x4096_S4096x1_1_0 : S1x4096.Transposes [1, 0] S4096x1
  bcast_S4096x1_S4096x512_0_1 : S4096x1.BroadcastsInDim S4096x512 (![0, 1] : Fin 2 → Fin S4096x512.rank)
  bcast_S_S4096x512 : S_.BroadcastsInDim S4096x512 (![] : Fin 0 → Fin S4096x512.rank)
  dot_S4096x512_S512x512_S4096x512_1_0_0_1_n_n_wf : DotDims.WF S4096x512 S512x512 S4096x512 [1] [0] [0] [1] [] []
  dot_S4096x4096_S4096x512_S4096x512_1_0_0_1_n_n_wf : DotDims.WF S4096x4096 S4096x512 S4096x512 [1] [0] [0] [1] [] []
  dot_S1x512_S512x4096_S1x4096_1_0_0_1_n_n_wf : DotDims.WF S1x512 S512x4096 S1x4096 [1] [0] [0] [1] [] []

variable [Facts₀]

def dot_S4096x512_S512x512_S4096x512_1_0_0_1_n_n : DotDims S4096x512 S512x512 S4096x512 where
  lhsContracting := [1]
  rhsContracting := [0]
  lhsNonContracting := [0]
  rhsNonContracting := [1]
  lhsBatch := []
  rhsBatch := []
  wf := dot_S4096x512_S512x512_S4096x512_1_0_0_1_n_n_wf
def dot_S4096x4096_S4096x512_S4096x512_1_0_0_1_n_n : DotDims S4096x4096 S4096x512 S4096x512 where
  lhsContracting := [1]
  rhsContracting := [0]
  lhsNonContracting := [0]
  rhsNonContracting := [1]
  lhsBatch := []
  rhsBatch := []
  wf := dot_S4096x4096_S4096x512_S4096x512_1_0_0_1_n_n_wf
def dot_S1x512_S512x4096_S1x4096_1_0_0_1_n_n : DotDims S1x512 S512x4096 S1x4096 where
  lhsContracting := [1]
  rhsContracting := [0]
  lhsNonContracting := [0]
  rhsNonContracting := [1]
  lhsBatch := []
  rhsBatch := []
  wf := dot_S1x512_S512x4096_S1x4096_1_0_0_1_n_n_wf

class Facts : Prop extends Facts₀ where

variable [Facts]
-- ==== Proof.LibBlockSum.lean ====
/-
  A sum over `a * b` consecutive indices, cut into `a` consecutive blocks of `b` indices each: the whole sum is the
  sum over the blocks of the sums inside each block. Only commutativity and associativity of `+` are used, so the
  law holds in every commutative additive monoid — in particular on the extended reals, where no finiteness is needed.
-/
import Mathlib.Algebra.BigOperators.Fin
import Mathlib.Logic.Equiv.Fin.Basic

namespace Cert.BlockSum

open Finset

/-- Position `j` of block `k` is an index below `a * b`. -/
theorem block_lt {a b : ℕ} (k : Fin a) (j : Fin b) : k.val * b + j.val < a * b :=
  Nat.lt_of_lt_of_le (Nat.add_lt_add_left j.isLt _) (by rw [← Nat.succ_mul]; exact Nat.mul_le_mul_right _ k.isLt)

/-- The sum of `g` over the `a * b` indices, read block by block: block `k` holds the indices `k * b + j`, `j < b`. -/
theorem sum_blocks {M : Type*} [AddCommMonoid M] (a b : ℕ) (g : Fin (a * b) → M) :
    ∑ i : Fin (a * b), g i = ∑ k : Fin a, ∑ j : Fin b, g ⟨k.val * b + j.val, block_lt k j⟩ := by
  rw [← finProdFinEquiv.sum_comp, Fintype.sum_prod_type]
  refine Finset.sum_congr rfl fun k _ => Finset.sum_congr rfl fun j _ => congrArg g (Fin.ext ?_)
  show j.val + b * k.val = k.val * b + j.val
  rw [Nat.mul_comm, Nat.add_comm]

/-- The same over `n` indices when `n` is the product `a * b`. -/
theorem sum_blocks_of_eq {M : Type*} [AddCommMonoid M] (a b n : ℕ) (hn : a * b = n) (g : Fin n → M) :
    ∑ i : Fin n, g i = ∑ k : Fin a, ∑ j : Fin b, g ⟨k.val * b + j.val, hn ▸ block_lt k j⟩ := by
  subst hn
  exact sum_blocks a b g

end Cert.BlockSum
-- ==== Proof.Layer.lean ====
/-
  What the layer computes, as functions of extended-real arrays, index by index. No program is mentioned here.

  Two messages are formed the same way: a neighbourhood matrix times (features times weights). For one message
  `x` (rows = cells, columns = channels) the attention weight of row `p` is the logistic function of the score
  `∑ q, x(p, q) · max (∑ r, x(r, q)) 0`: the row against the rectified column sums of the whole message. The layer's
  result is the rectified half-sum of the two messages, each row scaled by its own weight.

  The column sums may also arrive cut into consecutive blocks of rows (one partial sum per block); the last section
  says that summing the partial sums gives the column sums, by regrouping a finite sum, which needs no finiteness.
-/
import Idealize.ShloMosaic.PureOps.Ideal
import Idealize.ShloMosaic.PureOps.Ideal.Laws
import Idealize.ShloMosaic.Lib.ValueIdx
import proofs.«146514_g24807731102122_cont_sun_c4_61_5_alg».proof.Proof.LibBlockSum

noncomputable section

open scoped BigOperators

open Idealize.ShloMosaic Idealize.ShloMosaic.ValueIdx

namespace Cert.Layer

/-- An array of extended reals with `a` rows and `b` columns. -/
abbrev Mat (a b : ℕ) : Type := (⟨2, ![a, b]⟩ : Shape).Idx → EReal

/-- The float words the programs spell: zero, one and one half. The same word stands on both sides of every equation
    below, so only the zero word's value is ever used (where it is added to, or subtracted from). -/
abbrev zeroW : EReal := Ideal.ofBits .f32 0x00000000#32
abbrev oneW : EReal := Ideal.ofBits .f32 0x3F800000#32
abbrev halfW : EReal := Ideal.ofBits .f32 0x3F000000#32

theorem zeroW_eq : zeroW = 0 := Ideal.ofBits_zero_f32

variable {a b k : ℕ}

/-- Entry (p, q) of the matrix product: row p of the left factor against column q of the right one. -/
def mulAt (l : Mat a k) (r : Mat k b) (p : Fin a) (q : Fin b) : EReal := ∑ j : Fin k, l (ix2 p j) * r (ix2 j q)

/-- The matrix product. -/
def mul (l : Mat a k) (r : Mat k b) : Mat a b := fun i => mulAt l r (i 0) (i 1)

/-- The sum of column q over all rows. -/
def colSum (x : Mat a b) (q : Fin b) : EReal := ∑ r : Fin a, x (ix2 r q)

/-- Row p's score against given column totals `s`: the row's entries against the rectified totals. -/
def scoreOf (x : Mat a b) (s : Fin b → EReal) (p : Fin a) : EReal := ∑ q : Fin b, x (ix2 p q) * max (s q) zeroW

/-- The logistic function of a score, spelt as the programs spell it: 1 / (1 + exp (−s)). -/
def logistic (s : EReal) : EReal := Ideal.div oneW (oneW + Ideal.exp (-s))

/-- Row p's attention weight within the message `x`. -/
def gate (x : Mat a b) (p : Fin a) : EReal := logistic (scoreOf x (colSum x) p)

/-- The update from two row weights and two messages, at one entry. -/
def blend (wx wy x y : EReal) : EReal := max ((wx * x + wy * y) * halfW) zeroW

/-- The layer's result from its two messages. -/
def combine (x y : Mat a b) : Mat a b := fun i => blend (gate x (i 0)) (gate y (i 0)) (x i) (y i)

/-- The whole layer: messages `lap · (x1 · wl)` and `inc · (x0 · wi)`, combined. -/
def layer {n c : ℕ} (x0 x1 : Mat n c) (lap inc : Mat n n) (wl wi : Mat c c) : Mat n c :=
  combine (mul lap (mul x1 wl)) (mul inc (mul x0 wi))

/-! ## Column sums from partial sums over consecutive blocks of rows -/

/-- Block `t`'s partial column sum: rows `t·h … t·h + h − 1`, `h` rows per block, `g` blocks. -/
def partialColSum {g h : ℕ} (hn : g * h = a) (x : Mat a b) (t : Fin g) (q : Fin b) : EReal :=
  ∑ r : Fin h, x (ix2 ⟨t.val * h + r.val, hn ▸ Cert.BlockSum.block_lt t r⟩ q)

/-- The partial sums add up to the column sum. -/
theorem sum_partialColSum {g h : ℕ} (hn : g * h = a) (x : Mat a b) (q : Fin b) :
    ∑ t : Fin g, partialColSum hn x t q = colSum x q :=
  (Cert.BlockSum.sum_blocks_of_eq g h a hn fun r => x (ix2 r q)).symm

end Cert.Layer

end
-- ==== Proof.RefLayer.lean ====
/-
  The reference program's result, read at the exact extended reals, is the layer of `Cert.Layer`.

  Each message is a matrix product of a neighbourhood matrix with (features times weights). The program forms the
  column sums of a message starting from the zero word, rectifies them, multiplies that row vector by the transposed
  message, and passes the scores through 1 / (1 + exp (−s)); the specification writes the same score with the factors
  of each product in the other order and with no leading zero. So two laws are used, both valid on the extended reals
  with no finiteness: 0 + x = x and a · b = b · a. Everything else is reading each operation at an index.
-/
import proofs.«146514_g24807731102122_cont_sun_c4_61_5_alg».proof.Proof.Gen.ReferenceIdeal.Read
import proofs.«146514_g24807731102122_cont_sun_c4_61_5_alg».proof.Proof.Layer

noncomputable section

open scoped BigOperators

open Idealize.ShloMosaic Idealize.ShloMosaic.ValueIdx Cert.ReferenceIdeal Cert.ReferenceIdeal.Read Cert.Layer

namespace Cert.ReferenceIdeal.RefValue

/-! ## The two messages are matrix products -/

/-- Features times weights, for the first message. -/
theorem v0_eq (x1 : Mat 4096 512) (x4 : Mat 512 512) : val_main_v0 (F := Ideal) x1 x4 = mul x1 x4 := by
  funext i
  obtain ⟨p, q, rfl⟩ : ∃ (p : Fin 4096) (q : Fin 512), i = ix2 p q := ⟨i 0, i 1, eq_ix2 i⟩
  rw [val_main_v0_apply]
  show _ = ∑ j : Fin 512, x1 (ix2 p j) * x4 (ix2 j q)
  refine Finset.sum_congr rfl fun k _ => ?_
  have el : lidx_main_v0 (ix2 p q) k = ix2 p k :=
    funext fun a => Fin.ext (by match a with | ⟨0, _⟩ => rfl | ⟨1, _⟩ => rfl)
  have er : ridx_main_v0 (ix2 p q) k = ix2 k q :=
    funext fun a => Fin.ext (by match a with | ⟨0, _⟩ => rfl | ⟨1, _⟩ => rfl)
  rw [el, er]

/-- The first message: the first neighbourhood matrix times (features times weights). -/
theorem v1_eq (x1 : Mat 4096 512) (x2 : Mat 4096 4096) (x4 : Mat 512 512) :
    val_main_v1 (F := Ideal) x1 x2 x4 = mul x2 (mul x1 x4) := by
  funext i
  obtain ⟨p, q, rfl⟩ : ∃ (p : Fin 4096) (q : Fin 512), i = ix2 p q := ⟨i 0, i 1, eq_ix2 i⟩
  rw [val_main_v1_apply, v0_eq]
  show _ = ∑ j : Fin 4096, x2 (ix2 p j) * mul x1 x4 (ix2 j q)
  refine Finset.sum_congr rfl fun k _ => ?_
  have el : lidx_main_v1 (ix2 p q) k = ix2 p k :=
    funext fun a => Fin.ext (by match a with | ⟨0, _⟩ => rfl | ⟨1, _⟩ => rfl)
  have er : ridx_main_v1 (ix2 p q) k = ix2 k q :=
    funext fun a => Fin.ext (by match a with | ⟨0, _⟩ => rfl | ⟨1, _⟩ => rfl)
  rw [el, er]

/-- Features times weights, for the second message. -/
theorem v2_eq (x0 : Mat 4096 512) (x5 : Mat 512 512) : val_main_v2 (F := Ideal) x0 x5 = mul x0 x5 := by
  funext i
  obtain ⟨p, q, rfl⟩ : ∃ (p : Fin 4096) (q : Fin 512), i = ix2 p q := ⟨i 0, i 1, eq_ix2 i⟩
  rw [val_main_v2_apply]
  show _ = ∑ j : Fin 512, x0 (ix2 p j) * x5 (ix2 j q)
  refine Finset.sum_congr rfl fun k _ => ?_
  have el : lidx_main_v2 (ix2 p q) k = ix2 p k :=
    funext fun a => Fin.ext (by match a with | ⟨0, _⟩ => rfl | ⟨1, _⟩ => rfl)
  have er : ridx_main_v2 (ix2 p q) k = ix2 k q :=
    funext fun a => Fin.ext (by match a with | ⟨0, _⟩ => rfl | ⟨1, _⟩ => rfl)
  rw [el, er]

/-- The second message: the second neighbourhood matrix times (features times weights). -/
theorem v3_eq (x0 : Mat 4096 512) (x3 : Mat 4096 4096) (x5 : Mat 512 512) :
    val_main_v3 (F := Ideal) x0 x3 x5 = mul x3 (mul x0 x5) := by
  funext i
  obtain ⟨p, q, rfl⟩ : ∃ (p : Fin 4096) (q : Fin 512), i = ix2 p q := ⟨i 0, i 1, eq_ix2 i⟩
  rw [val_main_v3_apply, v2_eq]
  show _ = ∑ j : Fin 4096, x3 (ix2 p j) * mul x0 x5 (ix2 j q)
  refine Finset.sum_congr rfl fun k _ => ?_
  have el : lidx_main_v3 (ix2 p q) k = ix2 p k :=
    funext fun a => Fin.ext (by match a with | ⟨0, _⟩ => rfl | ⟨1, _⟩ => rfl)
  have er : ridx_main_v3 (ix2 p q) k = ix2 k q :=
    funext fun a => Fin.ext (by match a with | ⟨0, _⟩ => rfl | ⟨1, _⟩ => rfl)
  rw [el, er]

/-! ## The attention weight of a row -/

/-- The reduce from the zero word over the rows is the column sum: 0 + s = s. -/
theorem v4_eq (x1 : Mat 4096 512) (x2 : Mat 4096 4096) (x4 : Mat 512 512) (q : Fin 512) :
    val_main_v4 (F := Ideal) x1 x2 x4 (ix1 q) = colSum (val_main_v1 (F := Ideal) x1 x2 x4) q := by
  rw [val_main_v4_apply, val_main_cst_apply]
  have e : ∀ k : Fin 4096, idx_main_v4 (ix1 q) k = ix2 k q := fun k =>
    funext fun a => Fin.ext (by match a with | ⟨0, _⟩ => rfl | ⟨1, _⟩ => rfl)
  simp only [e]
  show zeroW + colSum (val_main_v1 (F := Ideal) x1 x2 x4) q = _
  rw [zeroW_eq, zero_add]

/-- The rectified column sums, laid along a row. -/
theorem v6_eq (x1 : Mat 4096 512) (x2 : Mat 4096 4096) (x4 : Mat 512 512) (z : Fin 1) (q : Fin 512) :
    val_main_v6 (F := Ideal) x1 x2 x4 (ix2 z q) = max (colSum (val_main_v1 (F := Ideal) x1 x2 x4) q) zeroW := by
  have e : idx_main_v5 (ix2 z q) = ix1 q :=
    funext fun a => Fin.ext (by match a with | ⟨0, _⟩ => rfl)
  rw [val_main_v6_apply, val_main_v5_apply, e, v4_eq, val_main_call0_v0_apply, val_main_call0_cst_apply]
  rfl

/-- The score of row p: the rectified column sums against the row, which is the row against them. -/
theorem v8_eq (x1 : Mat 4096 512) (x2 : Mat 4096 4096) (x4 : Mat 512 512) (z : Fin 1) (p : Fin 4096) :
    val_main_v8 (F := Ideal) x1 x2 x4 (ix2 z p)
      = scoreOf (val_main_v1 (F := Ideal) x1 x2 x4) (colSum (val_main_v1 (F := Ideal) x1 x2 x4)) p := by
  rw [val_main_v8_apply]
  show _ = ∑ q : Fin 512, val_main_v1 (F := Ideal) x1 x2 x4 (ix2 p q)
      * max (colSum (val_main_v1 (F := Ideal) x1 x2 x4) q) zeroW
  refine Finset.sum_congr rfl fun k _ => ?_
  have el : lidx_main_v8 (ix2 z p) k = ix2 z k :=
    funext fun a => Fin.ext (by match a with | ⟨0, _⟩ => rfl | ⟨1, _⟩ => rfl)
  have er : ridx_main_v8 (ix2 z p) k = ix2 k p :=
    funext fun a => Fin.ext (by match a with | ⟨0, _⟩ => rfl | ⟨1, _⟩ => rfl)
  have et : idx_main_v7 (ix2 k p) = ix2 p k :=
    funext fun a => Fin.ext (by match a with | ⟨0, _⟩ => rfl | ⟨1, _⟩ => rfl)
  rw [el, er, v6_eq, val_main_v7_apply, et]
  exact mul_comm _ _

/-- The weight of row p: the logistic function of its score. -/
theorem v14_eq (x1 : Mat 4096 512) (x2 : Mat 4096 4096) (x4 : Mat 512 512) (z : Fin 1) (p : Fin 4096) :
    val_main_v14 (F := Ideal) x1 x2 x4 (ix2 z p) = gate (val_main_v1 (F := Ideal) x1 x2 x4) p := by
  rw [val_main_v14_apply, val_main_v13_apply, val_main_cst_1_apply, val_main_v12_apply, val_main_v11_apply,
    val_main_cst_0_apply, val_main_v10_apply, val_main_v9_apply, v8_eq]
  rfl

/-- The same four steps for the second message. -/
theorem v18_eq (x0 : Mat 4096 512) (x3 : Mat 4096 4096) (x5 : Mat 512 512) (q : Fin 512) :
    val_main_v18 (F := Ideal) x0 x3 x5 (ix1 q) = colSum (val_main_v3 (F := Ideal) x0 x3 x5) q := by
  rw [val_main_v18_apply, val_main_cst_2_apply]
  have e : ∀ k : Fin 4096, idx_main_v18 (ix1 q) k = ix2 k q := fun k =>
    funext fun a => Fin.ext (by match a with | ⟨0, _⟩ => rfl | ⟨1, _⟩ => rfl)
  simp only [e]
  show zeroW + colSum (val_main_v3 (F := Ideal) x0 x3 x5) q = _
  rw [zeroW_eq, zero_add]

theorem v20_eq (x0 : Mat 4096 512) (x3 : Mat 4096 4096) (x5 : Mat 512 512) (z : Fin 1) (q : Fin 512) :
    val_main_v20 (F := Ideal) x0 x3 x5 (ix2 z q) = max (colSum (val_main_v3 (F := Ideal) x0 x3 x5) q) zeroW := by
  have e : idx_main_v19 (ix2 z q) = ix1 q :=
    funext fun a => Fin.ext (by match a with | ⟨0, _⟩ => rfl)
  rw [val_main_v20_apply, val_main_v19_apply, e, v18_eq, val_main_call1_v0_apply, val_main_call1_cst_apply]
  rfl

theorem v22_eq (x0 : Mat 4096 512) (x3 : Mat 4096 4096) (x5 : Mat 512 512) (z : Fin 1) (p : Fin 4096) :
    val_main_v22 (F := Ideal) x0 x3 x5 (ix2 z p)
      = scoreOf (val_main_v3 (F := Ideal) x0 x3 x5) (colSum (val_main_v3 (F := Ideal) x0 x3 x5)) p := by
  rw [val_main_v22_apply]
  show _ = ∑ q : Fin 512, val_main_v3 (F := Ideal) x0 x3 x5 (ix2 p q)
      * max (colSum (val_main_v3 (F := Ideal) x0 x3 x5) q) zeroW
  refine Finset.sum_congr rfl fun k _ => ?_
  have el : lidx_main_v22 (ix2 z p) k = ix2 z k :=
    funext fun a => Fin.ext (by match a with | ⟨0, _⟩ => rfl | ⟨1, _⟩ => rfl)
  have er : ridx_main_v22 (ix2 z p) k = ix2 k p :=
    funext fun a => Fin.ext (by match a with | ⟨0, _⟩ => rfl | ⟨1, _⟩ => rfl)
  have et : idx_main_v21 (ix2 k p) = ix2 p k :=
    funext fun a => Fin.ext (by match a with | ⟨0, _⟩ => rfl | ⟨1, _⟩ => rfl)
  rw [el, er, v20_eq, val_main_v21_apply, et]
  exact mul_comm _ _

theorem v28_eq (x0 : Mat 4096 512) (x3 : Mat 4096 4096) (x5 : Mat 512 512) (z : Fin 1) (p : Fin 4096) :
    val_main_v28 (F := Ideal) x0 x3 x5 (ix2 z p) = gate (val_main_v3 (F := Ideal) x0 x3 x5) p := by
  rw [val_main_v28_apply, val_main_v27_apply, val_main_cst_4_apply, val_main_v26_apply, val_main_v25_apply,
    val_main_cst_3_apply, val_main_v24_apply, val_main_v23_apply, v22_eq]
  rfl

/-! ## Each message scaled row by row by its weight -/

theorem v17_eq (x1 : Mat 4096 512) (x2 : Mat 4096 4096) (x4 : Mat 512 512) (p : Fin 4096) (q : Fin 512) :
    val_main_v17 (F := Ideal) x1 x2 x4 (ix2 p q)
      = gate (val_main_v1 (F := Ideal) x1 x2 x4) p * val_main_v1 (F := Ideal) x1 x2 x4 (ix2 p q) := by
  have e16 : idx_main_v16 (ix2 p q) = ix2 p (⟨0, Nat.one_pos⟩ : Fin 1) :=
    funext fun a => Fin.ext (by match a with | ⟨0, _⟩ => rfl | ⟨1, _⟩ => rfl)
  have e15 : idx_main_v15 (ix2 p (⟨0, Nat.one_pos⟩ : Fin 1)) = ix2 (⟨0, Nat.one_pos⟩ : Fin 1) p :=
    funext fun a => Fin.ext (by match a with | ⟨0, _⟩ => rfl | ⟨1, _⟩ => rfl)
  rw [val_main_v17_apply, val_main_v16_apply, e16, val_main_v15_apply, e15, v14_eq]
  rfl

theorem v31_eq (x0 : Mat 4096 512) (x3 : Mat 4096 4096) (x5 : Mat 512 512) (p : Fin 4096) (q : Fin 512) :
    val_main_v31 (F := Ideal) x0 x3 x5 (ix2 p q)
      = gate (val_main_v3 (F := Ideal) x0 x3 x5) p * val_main_v3 (F := Ideal) x0 x3 x5 (ix2 p q) := by
  have e30 : idx_main_v30 (ix2 p q) = ix2 p (⟨0, Nat.one_pos⟩ : Fin 1) :=
    funext fun a => Fin.ext (by match a with | ⟨0, _⟩ => rfl | ⟨1, _⟩ => rfl)
  have e29 : idx_main_v29 (ix2 p (⟨0, Nat.one_pos⟩ : Fin 1)) = ix2 (⟨0, Nat.one_pos⟩ : Fin 1) p :=
    funext fun a => Fin.ext (by match a with | ⟨0, _⟩ => rfl | ⟨1, _⟩ => rfl)
  rw [val_main_v31_apply, val_main_v30_apply, e30, val_main_v29_apply, e29, v28_eq]
  rfl

/-! ## The result -/

/-- The reference's result is the layer: the rectified half-sum of the two weighted messages. -/
theorem result_eq
    (x0 x1 : (⟨Cert.ReferenceIdeal.S4096x512, .f32⟩ : BufTy).Contents (Elt Ideal))
    (x2 x3 : (⟨Cert.ReferenceIdeal.S4096x4096, .f32⟩ : BufTy).Contents (Elt Ideal))
    (x4 x5 : (⟨Cert.ReferenceIdeal.S512x512, .f32⟩ : BufTy).Contents (Elt Ideal)) :
    Cert.ReferenceIdeal.Read.val_main_v35 (F := Ideal) x0 x1 x2 x3 x4 x5 = Cert.Layer.layer x0 x1 x2 x3 x4 x5 := by
  funext i
  obtain ⟨p, q, rfl⟩ : ∃ (p : Fin 4096) (q : Fin 512), i = ix2 p q := ⟨i 0, i 1, eq_ix2 i⟩
  rw [val_main_v35_apply, val_main_v34_apply, val_main_v32_apply, v17_eq, v31_eq, val_main_v33_apply,
    val_main_cst_5_apply, val_main_call2_v0_apply, val_main_call2_cst_apply, v1_eq, v3_eq]
  rfl

end Cert.ReferenceIdeal.RefValue

end
-- ==== Proof.KernelRun.lean ====
/-
  The kernel program's run with its result named. The program is three kernel regions in a row; the buffer contents at
  the three region boundaries are the generated fold `W0 → W1 → W2 → W3`: each region leaves its own arrays at what
  its write-backs fold to and every other buffer as it found it. Every weakly fair execution from the launch memory
  terminates with every unscoped buffer at `W3`; so any property of the final memory that follows from "each buffer
  holds `W3`'s contents" holds of the run. The second theorem reads that for the six arguments (unchanged) and for the
  result buffer: the last region's output array after its last grid point.
-/
import proofs.«146514_g24807731102122_cont_sun_c4_61_5_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault, and whatever follows from every unscoped
    buffer holding the last boundary's contents holds of the final memory. -/
theorem run_reading {Q : PUnit × MemSt nD τ sig (Elt F) → Prop}
    (hQ : ∀ s : MemSt nD τ sig (Elt F),
      (∀ c : Dev nD, ∀ b ∈ Pipeline.ucRefs τ sig, s.mem (((c : Thread nD τ)).1, b) = W3 m ρ c b) → Q (⟨⟩, s)) :
    θ_run defs (onTc (τ := τ) (main (F := F))) ⟨m, fun _ => 0, ρ⟩ Q :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := hQ)

/-- The run with the result named: the arguments end as launched, and the result buffer holds the last region's
    output array as its write-backs leave it after the last grid point. -/
theorem run_result : θ_run defs (onTc (τ := τ) (main (F := F))) ⟨m, fun _ => 0, ρ⟩ (fun r => ∀ c : Dev nD,
      r.2.mem ((c.tc : Thread nD τ).loc main_v2) = (dat2 (V2 m ρ) c).arrAt 4 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  run_reading m ρ fun s h c =>
    ⟨(h c _ (mem_uc main_v2 (by decide))).trans (W3_arr m ρ c 4),
     (h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c),
     (h c _ (mem_uc main_arg3 (by decide))).trans (W3_main_arg3 m ρ c),
     (h c _ (mem_uc main_arg4 (by decide))).trans (W3_main_arg4 m ρ c),
     (h c _ (mem_uc main_arg5 (by decide))).trans (W3_main_arg5 m ρ c)⟩

end Cert.KernelIdeal.Run

end
-- ==== Proof.LayerParts.lean ====
/-
  The layer's specification, continued: the column sums of a message as they are actually accumulated, and the
  programs' other spelling of the logistic function.

  The rows are cut into `g` consecutive blocks of `h` rows. `partials` is the `[g, 1, b]` array of the blocks' partial
  column sums; `totals` adds an array of partial sums over its leading axis. The totals of the partial sums are the
  column sums (a finite sum regrouped). `logisticK` negates its argument by subtracting it from the zero word, which is
  the same number; `combineWith` is the layer's result with the column totals supplied from outside, and with the true
  column sums supplied it is `combine`.
-/
import proofs.«146514_g24807731102122_cont_sun_c4_61_5_alg».proof.Proof.Layer

noncomputable section

open scoped BigOperators

open Idealize.ShloMosaic Idealize.ShloMosaic.ValueIdx

namespace Cert.Layer

variable {a b : ℕ}

/-- The partial column sums of the `g` blocks of `h` rows, as a `[g, 1, b]` array. -/
def partials {g h : ℕ} (hn : g * h = a) (x : Mat a b) : (⟨3, ![g, 1, b]⟩ : Shape).Idx → EReal :=
  fun i => partialColSum hn x (i 0) (i 2)

/-- An array of partial sums added over its leading axis. -/
def totals {g : ℕ} (s : (⟨3, ![g, 1, b]⟩ : Shape).Idx → EReal) (q : Fin b) : EReal := ∑ t : Fin g, s (ix3 t (0 : Fin 1) q)

/-- The totals of the partial column sums are the column sums. -/
theorem totals_partials {g h : ℕ} (hn : g * h = a) (x : Mat a b) : totals (partials hn x) = colSum x :=
  funext fun q => sum_partialColSum hn x q

/-- The logistic function with the negation spelt as a subtraction from the zero word. -/
def logisticK (s : EReal) : EReal := Ideal.div oneW (oneW + Ideal.exp (zeroW - s))

theorem logisticK_eq (s : EReal) : logisticK s = logistic s := by
  unfold logisticK logistic
  rw [zeroW_eq, zero_sub]

/-- The layer's result from two messages and two families of column totals. -/
def combineWith (x y : Mat a b) (sx sy : Fin b → EReal) : Mat a b :=
  fun i => blend (logisticK (scoreOf x sx (i 0))) (logisticK (scoreOf y sy (i 0))) (x i) (y i)

/-- With the messages' own column sums for totals it is the layer's combination. -/
theorem combineWith_colSum (x y : Mat a b) : combineWith x y (colSum x) (colSum y) = combine x y := by
  funext i
  unfold combineWith combine gate
  rw [logisticK_eq, logisticK_eq]

end Cert.Layer

end
-- ==== Proof.LibPlainMatmul.lean ====
/- Two contractions read at coordinates, on the extended reals, for any extents: a `tpu.matmul` with the plain dimension
   numbers (rows × contraction by contraction × columns) into the zero accumulator, at (p, c), is the sum over the
   contraction coordinate k of left(p, k) · right(k, c); and a lane sum of a matrix (a `vector.multi_reduction <add>`
   along axis 1 from the neutral accumulator), at row p, is the sum over k of the matrix at (p, k). Nothing here depends
   on a particular program: a printed record with the plain lists is `DotDims.plain` by `rfl`. -/
import Idealize.ShloMosaic.PureOps.Ideal
import Idealize.ShloMosaic.PureOps.Ideal.Laws
import Idealize.ShloMosaic.Lib.ValueIdx

noncomputable section

open scoped BigOperators

open Idealize.ShloMosaic Idealize.ShloMosaic.ValueIdx

namespace Cert.Lib.PlainMatmul

/-- A matrix product with the plain dimension numbers into the zero accumulator, read at (p, c): the sum over the one
    contraction coordinate of the left operand's row p against the right operand's column c. -/
theorem plain_matmul_zero_apply {M K N : ℕ} {φ₁ φ₂ : FTy} (l : FVec Ideal ⟨2, ![M, K]⟩ φ₁) (r : FVec Ideal ⟨2, ![K, N]⟩ φ₂)
    (p : Fin M) (c : Fin N) :
    FloatOps.matmul (DotDims.plain M K N) none l r (constant (F := Ideal) ⟨2, ![M, N]⟩ .f32 0x00000000#32) (ix2 p c)
      = ∑ k : Fin K, l (ix2 p k) * r (ix2 k c) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p c) ((contrEquiv1 (DotDims.plain M K N) K rfl rfl).symm k) = ix2 p k :=
    funext fun a => Fin.ext (by
      match a with
      | ⟨0, _⟩ => rfl
      | ⟨1, _⟩ => exact ((DotDims.plain M K N).lhsIdx_val_of_single rfl _ _).trans hk)
  have er : (DotDims.plain M K N).rhsIdx (ix2 p c) ((contrEquiv1 (DotDims.plain M K N) K rfl rfl).symm k) = ix2 k c :=
    funext fun a => Fin.ext (by
      match a with
      | ⟨0, _⟩ => exact ((DotDims.plain M K N).rhsIdx_val_of_single rfl _ _).trans hk
      | ⟨1, _⟩ => rfl)
  rw [el, er]

/-- A lane sum of a matrix from the neutral accumulator, read at row p: the sum over the lane coordinate of the matrix
    at (p, k). The hypotheses are typed as the library's reading of the reduction takes them; a printed body's proof
    arguments are accepted for them. -/
theorem rowSum_apply {A K : ℕ} (src : FVec Ideal ⟨2, ![A, K]⟩ .f32) (acc : BitVec 32)
    (h : (⟨2, ![A, K]⟩ : Shape).Reduces [1] ⟨1, ![A]⟩) (hφ : FKind.Formats .f32) (hacc : acc = FKind.add.neutral .f32 hφ)
    (p : Fin A) :
    multiReduction .add [1] ⟨1, ![A]⟩ src acc h hφ hacc (ix1 p) = ∑ k : Fin K, src (ix2 p k) :=
  (Ideal.multiReduction_add_single src acc h hφ hacc (ix1 p)).trans
    (Finset.sum_congr rfl fun k _ => congrArg src (funext fun a => Fin.ext (by
      match a with
      | ⟨0, _⟩ => rfl
      | ⟨1, _⟩ => rfl)))

end Cert.Lib.PlainMatmul

end
-- ==== Proof.Feature.lean ====
/-
  The first kernel region, read as a value: features times weights, twice. Its grid has 8 points; point `t` fetches
  rows `512 t … 512 t + 511` of each feature array and the whole of each weight array, multiplies, and writes the
  product's 512 rows back to the same rows of its output array. A row block of a matrix product is the product of
  the row block with the whole right factor, and the 8 row blocks cover the 4096 rows, so after the region each output
  array is the whole matrix product. Everything is stated at the contents `V` the region is entered with.
-/
import proofs.«146514_g24807731102122_cont_sun_c4_61_5_alg».proof.Proof.Gen.KernelIdeal.Frame
import proofs.«146514_g24807731102122_cont_sun_c4_61_5_alg».proof.Proof.Layer
import proofs.«146514_g24807731102122_cont_sun_c4_61_5_alg».proof.Proof.LibPlainMatmul
import Idealize.ShloMosaic.Lib.Pipeline.Value
import Idealize.ShloMosaic.Lib.ValueIdx

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.Feature

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-! ## The printed index maps, decided over the 8 grid points -/

theorem idx_0 : ∀ t : Fin cfg0.N, win0_0.index t (0 : Fin 2) = t.val ∧ win0_0.index t (1 : Fin 2) = 0 :=
  (by decide +kernel : ∀ t : Fin grid0.N, _)
theorem idx_1 : ∀ t : Fin cfg0.N, win0_1.index t (0 : Fin 2) = t.val ∧ win0_1.index t (1 : Fin 2) = 0 :=
  (by decide +kernel : ∀ t : Fin grid0.N, _)
theorem idx_2 : ∀ t : Fin cfg0.N, win0_2.index t (0 : Fin 2) = 0 ∧ win0_2.index t (1 : Fin 2) = 0 :=
  (by decide +kernel : ∀ t : Fin grid0.N, _)
theorem idx_3 : ∀ t : Fin cfg0.N, win0_3.index t (0 : Fin 2) = 0 ∧ win0_3.index t (1 : Fin 2) = 0 :=
  (by decide +kernel : ∀ t : Fin grid0.N, _)
theorem idx_4 : ∀ t : Fin cfg0.N, win0_4.index t (0 : Fin 2) = t.val ∧ win0_4.index t (1 : Fin 2) = 0 :=
  (by decide +kernel : ∀ t : Fin grid0.N, _)
theorem idx_5 : ∀ t : Fin cfg0.N, win0_5.index t (0 : Fin 2) = t.val ∧ win0_5.index t (1 : Fin 2) = 0 :=
  (by decide +kernel : ∀ t : Fin grid0.N, _)

/-! ## The input blocks as rows of their arrays -/

/-- Window 0's block at point `t` is rows `512 t … 512 t + 511` of the array its window stages. -/
theorem iblk_0_apply (c : Dev nD) (t : Fin cfg0.N) (y : S512x512.Idx) (i : S4096x512.Idx)
    (h0 : (i 0).val = 512 * t.val + (y 0).val) (h1 : (i 1).val = (y 1).val) :
    (iblk0 V c 0 t : Vec Ideal S512x512 .f32) y = (V c main_arg1 : S4096x512.Idx → EReal) i := by
  obtain ⟨e0, e1⟩ := idx_0 t
  unfold iblk0
  rw [View.read_apply]
  show V c main_arg1 _ = V c main_arg1 _
  refine congrArg _ ?_
  funext a
  apply Fin.ext
  match a with
  | ⟨0, _⟩ => show win0_0.index t 0 * 512 + 1 * (y 0).val = (i 0).val; rw [e0, h0]; omega
  | ⟨1, _⟩ => show win0_0.index t 1 * 512 + 1 * (y 1).val = (i 1).val; rw [e1, h1]; omega

/-- Window 1's block at point `t` is rows `512 t … 512 t + 511` of the array its window stages. -/
theorem iblk_1_apply (c : Dev nD) (t : Fin cfg0.N) (y : S512x512.Idx) (i : S4096x512.Idx)
    (h0 : (i 0).val = 512 * t.val + (y 0).val) (h1 : (i 1).val = (y 1).val) :
    (iblk0 V c 1 t : Vec Ideal S512x512 .f32) y = (V c main_arg0 : S4096x512.Idx → EReal) i := by
  obtain ⟨e0, e1⟩ := idx_1 t
  unfold iblk0
  rw [View.read_apply]
  show V c main_arg0 _ = V c main_arg0 _
  refine congrArg _ ?_
  funext a
  apply Fin.ext
  match a with
  | ⟨0, _⟩ => show win0_1.index t 0 * 512 + 1 * (y 0).val = (i 0).val; rw [e0, h0]; omega
  | ⟨1, _⟩ => show win0_1.index t 1 * 512 + 1 * (y 1).val = (i 1).val; rw [e1, h1]; omega

/-- Window 2's block at every point is the whole of the array its window stages. -/
theorem iblk_2_apply (c : Dev nD) (t : Fin cfg0.N) (y : S512x512.Idx) :
    (iblk0 V c 2 t : Vec Ideal S512x512 .f32) y = (V c main_arg4 : S512x512.Idx → EReal) y := by
  obtain ⟨e0, e1⟩ := idx_2 t
  unfold iblk0
  rw [View.read_apply]
  show V c main_arg4 _ = V c main_arg4 _
  refine congrArg _ ?_
  funext a
  apply Fin.ext
  match a with
  | ⟨0, _⟩ => show win0_2.index t 0 * 512 + 1 * (y 0).val = (y 0).val; rw [e0]; omega
  | ⟨1, _⟩ => show win0_2.index t 1 * 512 + 1 * (y 1).val = (y 1).val; rw [e1]; omega

/-- Window 3's block at every point is the whole of the array its window stages. -/
theorem iblk_3_apply (c : Dev nD) (t : Fin cfg0.N) (y : S512x512.Idx) :
    (iblk0 V c 3 t : Vec Ideal S512x512 .f32) y = (V c main_arg5 : S512x512.Idx → EReal) y := by
  obtain ⟨e0, e1⟩ := idx_3 t
  unfold iblk0
  rw [View.read_apply]
  show V c main_arg5 _ = V c main_arg5 _
  refine congrArg _ ?_
  funext a
  apply Fin.ext
  match a with
  | ⟨0, _⟩ => show win0_3.index t 0 * 512 + 1 * (y 0).val = (y 0).val; rw [e0]; omega
  | ⟨1, _⟩ => show win0_3.index t 1 * 512 + 1 * (y 1).val = (y 1).val; rw [e1]; omega

/-! ## Output window 4 -/

/-- The body's value for window 4 at (p, q): row p of the left block against column q of the right one (a change of
    float format is the identity on the extended reals, and the accumulator starts at zero). -/
theorem pay_4_apply (xl xr : Vec Ideal S512x512 .f32) (p q : Fin 512) :
    k0_pay1 (F := Ideal) xl xr (ix2 p q) = ∑ k : Fin 512, xl (ix2 p k) * xr (ix2 k q) := by
  unfold k0_pay1
  exact Cert.Lib.PlainMatmul.plain_matmul_zero_apply (M := 512) (K := 512) (N := 512) _ _ p q

/-- What point `t` writes back through window 4 is block `t` of the product of windows 0's and 2's arrays. -/
theorem flushed_4_eq (c : Dev nD) (t : Fin cfg0.N) :
    (dat0 V c).flushed 4 t = ((cfg0.win 4).blk t).view.read (Elt Ideal)
      (Cert.Layer.mul (a := 4096) (k := 512) (b := 512) (V c main_arg1) (V c main_arg4)) := by
  show (cfg0.win 4).cut (grid0.coords t) ((dat0 V c).after 4 t) = _
  rw [after0_4]
  unfold out0_4
  rw [View.canon_unit_zero hz]
  simp only [View.ld_unit_zero (S := S512x512) hz]
  obtain ⟨e0, e1⟩ := idx_4 t
  funext j
  obtain ⟨p, q, rfl⟩ : ∃ (p q : Fin 512), j = ix2 p q := ⟨j 0, j 1, eq_ix2 j⟩
  show k0_pay1 (iblk0 V c 0 t) (iblk0 V c 2 t) (ix2 p q)
    = Cert.Layer.mulAt (a := 4096) (k := 512) (b := 512) (V c main_arg1) (V c main_arg4)
        ((((cfg0.win 4).blk t).view.emb (ix2 p q)) 0) ((((cfg0.win 4).blk t).view.emb (ix2 p q)) 1)
  refine (pay_4_apply _ _ p q).trans ?_
  unfold Cert.Layer.mulAt
  refine Finset.sum_congr rfl fun k _ => ?_
  refine congrArg₂ (· * ·) (iblk_0_apply V c t (ix2 p k) _ ?_ rfl) ((iblk_2_apply V c t (ix2 k q)).trans (congrArg _ ?_))
  · show win0_4.index t 0 * 512 + 1 * p.val = 512 * t.val + p.val
    rw [e0]; omega
  · funext a
    apply Fin.ext
    match a with
    | ⟨0, _⟩ => rfl
    | ⟨1, _⟩ => show q.val = win0_4.index t 1 * 512 + 1 * q.val; rw [e1]; omega

/-- An index of the array is in point `t`'s block of window 4 iff each coordinate is in the block's range. -/
theorem mem_blk_4 (t : Fin cfg0.N) (i : S4096x512.Idx) :
    i ∈ ((cfg0.win 4).blk t).view.set ↔ ∀ a : Fin 2, win0_4.index t a * S512x512.size a ≤ (i a).val
      ∧ (i a).val < win0_4.index t a * S512x512.size a + S512x512.size a := by
  show i ∈ ((View.whole main_v0_0).slice (win0_4.rect t)).set ↔ _
  rw [View.set_slice_whole, Rect.mem_set_unit]
  exact Iff.rfl

/-- Every row lies in the block of the point numbered by the row's quotient by 512: the blocks cover the array. -/
theorem cover_4 (i : S4096x512.Idx) :
    ∃ t : Fin cfg0.N, (cfg0.win 4).flush t = true ∧ i ∈ ((cfg0.win 4).blk t).view.set := by
  have hi0 : (i 0).val < 4096 := (i 0).isLt
  have hi1 : (i 1).val < 512 := (i 1).isLt
  have hN : cfg0.N = 8 := N_0
  have ht : (i 0).val / 512 < cfg0.N := by rw [hN]; omega
  refine ⟨⟨(i 0).val / 512, ht⟩, flush0_4 _, ?_⟩
  rw [mem_blk_4]
  obtain ⟨e0, e1⟩ := idx_4 ⟨(i 0).val / 512, ht⟩
  intro a
  match a with
  | ⟨0, _⟩ =>
    show win0_4.index ⟨(i 0).val / 512, ht⟩ 0 * 512 ≤ (i 0).val ∧ (i 0).val < win0_4.index ⟨(i 0).val / 512, ht⟩ 0 * 512 + 512
    rw [e0]; show (i 0).val / 512 * 512 ≤ (i 0).val ∧ (i 0).val < (i 0).val / 512 * 512 + 512; omega
  | ⟨1, _⟩ =>
    show win0_4.index ⟨(i 0).val / 512, ht⟩ 1 * 512 ≤ (i 1).val ∧ (i 1).val < win0_4.index ⟨(i 0).val / 512, ht⟩ 1 * 512 + 512
    rw [e1]; omega

/-- After the region, window 4's array is the product of windows 0's and 2's arrays. -/
theorem final_4 (c : Dev nD) : (dat0 V c).arrAt 4 cfg0.N
    = Cert.Layer.mul (a := 4096) (k := 512) (b := 512) (V c main_arg1) (V c main_arg4) :=
  (dat0 V c).arrAt_eq_of_cover 4 _ (fun t _ => flushed_4_eq V c t) cover_4

/-! ## Output window 5 -/

/-- The body's value for window 5 at (p, q): row p of the left block against column q of the right one (a change of
    float format is the identity on the extended reals, and the accumulator starts at zero). -/
theorem pay_5_apply (xl xr : Vec Ideal S512x512 .f32) (p q : Fin 512) :
    k0_pay2 (F := Ideal) xl xr (ix2 p q) = ∑ k : Fin 512, xl (ix2 p k) * xr (ix2 k q) := by
  unfold k0_pay2
  exact Cert.Lib.PlainMatmul.plain_matmul_zero_apply (M := 512) (K := 512) (N := 512) _ _ p q

/-- What point `t` writes back through window 5 is block `t` of the product of windows 1's and 3's arrays. -/
theorem flushed_5_eq (c : Dev nD) (t : Fin cfg0.N) :
    (dat0 V c).flushed 5 t = ((cfg0.win 5).blk t).view.read (Elt Ideal)
      (Cert.Layer.mul (a := 4096) (k := 512) (b := 512) (V c main_arg0) (V c main_arg5)) := by
  show (cfg0.win 5).cut (grid0.coords t) ((dat0 V c).after 5 t) = _
  rw [after0_5]
  unfold out0_5
  rw [View.canon_unit_zero hz]
  simp only [View.ld_unit_zero (S := S512x512) hz]
  obtain ⟨e0, e1⟩ := idx_5 t
  funext j
  obtain ⟨p, q, rfl⟩ : ∃ (p q : Fin 512), j = ix2 p q := ⟨j 0, j 1, eq_ix2 j⟩
  show k0_pay2 (iblk0 V c 1 t) (iblk0 V c 3 t) (ix2 p q)
    = Cert.Layer.mulAt (a := 4096) (k := 512) (b := 512) (V c main_arg0) (V c main_arg5)
        ((((cfg0.win 5).blk t).view.emb (ix2 p q)) 0) ((((cfg0.win 5).blk t).view.emb (ix2 p q)) 1)
  refine (pay_5_apply _ _ p q).trans ?_
  unfold Cert.Layer.mulAt
  refine Finset.sum_congr rfl fun k _ => ?_
  refine congrArg₂ (· * ·) (iblk_1_apply V c t (ix2 p k) _ ?_ rfl) ((iblk_3_apply V c t (ix2 k q)).trans (congrArg _ ?_))
  · show win0_5.index t 0 * 512 + 1 * p.val = 512 * t.val + p.val
    rw [e0]; omega
  · funext a
    apply Fin.ext
    match a with
    | ⟨0, _⟩ => rfl
    | ⟨1, _⟩ => show q.val = win0_5.index t 1 * 512 + 1 * q.val; rw [e1]; omega

/-- An index of the array is in point `t`'s block of window 5 iff each coordinate is in the block's range. -/
theorem mem_blk_5 (t : Fin cfg0.N) (i : S4096x512.Idx) :
    i ∈ ((cfg0.win 5).blk t).view.set ↔ ∀ a : Fin 2, win0_5.index t a * S512x512.size a ≤ (i a).val
      ∧ (i a).val < win0_5.index t a * S512x512.size a + S512x512.size a := by
  show i ∈ ((View.whole main_v0_1).slice (win0_5.rect t)).set ↔ _
  rw [View.set_slice_whole, Rect.mem_set_unit]
  exact Iff.rfl

/-- Every row lies in the block of the point numbered by the row's quotient by 512: the blocks cover the array. -/
theorem cover_5 (i : S4096x512.Idx) :
    ∃ t : Fin cfg0.N, (cfg0.win 5).flush t = true ∧ i ∈ ((cfg0.win 5).blk t).view.set := by
  have hi0 : (i 0).val < 4096 := (i 0).isLt
  have hi1 : (i 1).val < 512 := (i 1).isLt
  have hN : cfg0.N = 8 := N_0
  have ht : (i 0).val / 512 < cfg0.N := by rw [hN]; omega
  refine ⟨⟨(i 0).val / 512, ht⟩, flush0_5 _, ?_⟩
  rw [mem_blk_5]
  obtain ⟨e0, e1⟩ := idx_5 ⟨(i 0).val / 512, ht⟩
  intro a
  match a with
  | ⟨0, _⟩ =>
    show win0_5.index ⟨(i 0).val / 512, ht⟩ 0 * 512 ≤ (i 0).val ∧ (i 0).val < win0_5.index ⟨(i 0).val / 512, ht⟩ 0 * 512 + 512
    rw [e0]; show (i 0).val / 512 * 512 ≤ (i 0).val ∧ (i 0).val < (i 0).val / 512 * 512 + 512; omega
  | ⟨1, _⟩ =>
    show win0_5.index ⟨(i 0).val / 512, ht⟩ 1 * 512 ≤ (i 1).val ∧ (i 1).val < win0_5.index ⟨(i 0).val / 512, ht⟩ 1 * 512 + 512
    rw [e1]; omega

/-- After the region, window 5's array is the product of windows 1's and 3's arrays. -/
theorem final_5 (c : Dev nD) : (dat0 V c).arrAt 5 cfg0.N
    = Cert.Layer.mul (a := 4096) (k := 512) (b := 512) (V c main_arg0) (V c main_arg5) :=
  (dat0 V c).arrAt_eq_of_cover 5 _ (fun t _ => flushed_5_eq V c t) cover_5

end Cert.KernelIdeal.Feature

end
-- ==== Proof.LibColSum.lean ====
/- A sum down the rows of a matrix, on the extended reals, for any extents: a `vector.multi_reduction <add>` along
   axis 0 of an [A, K] array from the neutral accumulator, read at column q, is the sum over the row coordinate k of
   the matrix at (k, q). The companion of the lane sum along axis 1. -/
import Idealize.ShloMosaic.PureOps.Ideal
import Idealize.ShloMosaic.PureOps.Ideal.Laws
import Idealize.ShloMosaic.Lib.ValueIdx

noncomputable section

open scoped BigOperators

open Idealize.ShloMosaic Idealize.ShloMosaic.ValueIdx

namespace Cert.Lib.ColSum

/-- A sum down the rows from the neutral accumulator, read at column q: the sum over the row coordinate of the matrix
    at (k, q). The hypotheses are typed as the library's reading of the reduction takes them; a printed body's proof
    arguments are accepted for them. -/
theorem colSum_apply {A K : ℕ} (src : FVec Ideal ⟨2, ![A, K]⟩ .f32) (acc : BitVec 32)
    (h : (⟨2, ![A, K]⟩ : Shape).Reduces [0] ⟨1, ![K]⟩) (hφ : FKind.Formats .f32) (hacc : acc = FKind.add.neutral .f32 hφ)
    (q : Fin K) :
    multiReduction .add [0] ⟨1, ![K]⟩ src acc h hφ hacc (ix1 q) = ∑ k : Fin A, src (ix2 k q) :=
  (Ideal.multiReduction_add_single src acc h hφ hacc (ix1 q)).trans
    (Finset.sum_congr rfl fun k _ => congrArg src (funext fun a => Fin.ext (by
      match a with
      | ⟨0, _⟩ => rfl
      | ⟨1, _⟩ => rfl)))

end Cert.Lib.ColSum

end
-- ==== Proof.LibUnitAxisReads.lean ====
/- Two reads at coordinates for arrays with unit axes, for any extents: a vector `[b]` cast to `[1, 1, b]` reads the
   vector at the surviving coordinate; and, on the extended reals, a `vector.multi_reduction <add>` along the leading
   axis of an `[n, 1, b]` array from the neutral accumulator, read at `(0, q)`, is the sum over the leading coordinate.
   Nothing here depends on a particular program. -/
import Idealize.ShloMosaic.PureOps.Ideal
import Idealize.ShloMosaic.PureOps.Ideal.Laws
import Idealize.ShloMosaic.Lib.Pipeline.Value
import Idealize.ShloMosaic.Lib.ValueIdx

noncomputable section

open scoped BigOperators

open Idealize.ShloMosaic Idealize.ShloMosaic.ValueIdx

namespace Cert.Lib.UnitAxisReads

/-- A vector `[b]` cast to `[1, 1, b]` reads, at `(u, v, q)`, the vector at `q`: both sit at row-major position `q`. -/
theorem shapeCast_b_11b_apply {α : Type} {b : ℕ} (x : (⟨1, ![b]⟩ : Shape).Idx → α)
    (h : (⟨1, ![b]⟩ : Shape).ShapeCasts ⟨3, ![1, 1, b]⟩) (u v : Fin 1) (q : Fin b) :
    shapeCast ⟨3, ![1, 1, b]⟩ x h (ix3 u v q) = x (ix1 q) :=
  shapeCast_apply x h _ _ (by
    have hu : u.val = 0 := by omega
    have hv : v.val = 0 := by omega
    rw [Shape.rowMajor_val_three, Shape.rowMajor_val_one]
    show q.val = (u.val * 1 + v.val) * b + q.val
    rw [hu, hv]; simp)

/-- A sum along the leading axis of an `[n, 1, b]` array from the neutral accumulator, read at `(u, q)`: the sum over
    the leading coordinate `t` of the array at `(t, u, q)`. The hypotheses are typed as the library's reading of the
    reduction takes them; a printed body's proof arguments are accepted for them. -/
theorem leadSum_apply {n b : ℕ} (src : FVec Ideal ⟨3, ![n, 1, b]⟩ .f32) (acc : BitVec 32)
    (h : (⟨3, ![n, 1, b]⟩ : Shape).Reduces [0] ⟨2, ![1, b]⟩) (hφ : FKind.Formats .f32) (hacc : acc = FKind.add.neutral .f32 hφ)
    (u : Fin 1) (q : Fin b) :
    multiReduction .add [0] ⟨2, ![1, b]⟩ src acc h hφ hacc (ix2 u q) = ∑ t : Fin n, src (ix3 t u q) :=
  (Ideal.multiReduction_add_single src acc h hφ hacc (ix2 u q)).trans
    (Finset.sum_congr rfl fun k _ => congrArg src (funext fun a => Fin.ext (by
      match a with
      | ⟨0, _⟩ => rfl
      | ⟨1, _⟩ => rfl
      | ⟨2, _⟩ => rfl)))

end Cert.Lib.UnitAxisReads

end
-- ==== Proof.Neighbour.lean ====
/-
  The second kernel region, read as a value: each neighbourhood matrix times the features-times-weights array of
  the first region, and the column sums of each product taken block by block. Its grid has 8 points; point `t`
  fetches rows `512 t … 512 t + 511` (all 4096 columns) of a neighbourhood matrix and the whole `[4096, 512]` right
  factor, multiplies (4096 terms per entry), writes the 512 product rows back to the same rows of the output, and
  writes the column sums of those 512 rows to entry `t` of an `[8, 1, 512]` array. So after the region the two
  `[4096, 512]` outputs are the whole matrix products, and the two `[8, 1, 512]` outputs are their partial column sums
  over the 8 row blocks. Everything is stated at the contents `V` the region is entered with.
-/
import proofs.«146514_g24807731102122_cont_sun_c4_61_5_alg».proof.Proof.Gen.KernelIdeal.Frame
import proofs.«146514_g24807731102122_cont_sun_c4_61_5_alg».proof.Proof.Layer
import proofs.«146514_g24807731102122_cont_sun_c4_61_5_alg».proof.Proof.LibPlainMatmul
import proofs.«146514_g24807731102122_cont_sun_c4_61_5_alg».proof.Proof.LayerParts
import proofs.«146514_g24807731102122_cont_sun_c4_61_5_alg».proof.Proof.LibColSum
import proofs.«146514_g24807731102122_cont_sun_c4_61_5_alg».proof.Proof.LibUnitAxisReads
import Idealize.ShloMosaic.Lib.Pipeline.Value
import Idealize.ShloMosaic.Lib.ValueIdx

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.Neighbour

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl
theorem hz3 : (![0, 0, 0] : Fin 3 → Nat) = fun _ => 0 := funext fun a => by fin_cases a <;> rfl

/-! ## The printed index maps, decided over the 8 grid points -/

theorem idx_0 : ∀ t : Fin cfg1.N, win1_0.index t (0 : Fin 2) = t.val ∧ win1_0.index t (1 : Fin 2) = 0 :=
  (by decide +kernel : ∀ t : Fin grid1.N, _)
theorem idx_1 : ∀ t : Fin cfg1.N, win1_1.index t (0 : Fin 2) = t.val ∧ win1_1.index t (1 : Fin 2) = 0 :=
  (by decide +kernel : ∀ t : Fin grid1.N, _)
theorem idx_2 : ∀ t : Fin cfg1.N, win1_2.index t (0 : Fin 2) = 0 ∧ win1_2.index t (1 : Fin 2) = 0 :=
  (by decide +kernel : ∀ t : Fin grid1.N, _)
theorem idx_3 : ∀ t : Fin cfg1.N, win1_3.index t (0 : Fin 2) = 0 ∧ win1_3.index t (1 : Fin 2) = 0 :=
  (by decide +kernel : ∀ t : Fin grid1.N, _)
theorem idx_4 : ∀ t : Fin cfg1.N, win1_4.index t (0 : Fin 2) = t.val ∧ win1_4.index t (1 : Fin 2) = 0 :=
  (by decide +kernel : ∀ t : Fin grid1.N, _)
theorem idx_5 : ∀ t : Fin cfg1.N, win1_5.index t (0 : Fin 2) = t.val ∧ win1_5.index t (1 : Fin 2) = 0 :=
  (by decide +kernel : ∀ t : Fin grid1.N, _)
theorem idx_6 : ∀ t : Fin cfg1.N, win1_6.index t (0 : Fin 3) = t.val ∧ win1_6.index t (1 : Fin 3) = 0
    ∧ win1_6.index t (2 : Fin 3) = 0 :=
  (by decide +kernel : ∀ t : Fin grid1.N, _)
theorem idx_7 : ∀ t : Fin cfg1.N, win1_7.index t (0 : Fin 3) = t.val ∧ win1_7.index t (1 : Fin 3) = 0
    ∧ win1_7.index t (2 : Fin 3) = 0 :=
  (by decide +kernel : ∀ t : Fin grid1.N, _)

/-! ## The input blocks as rows of their arrays -/

/-- Window 0's block at point `t` is rows `512 t … 512 t + 511`, all 4096 columns, of the array its window stages. -/
theorem iblk_0_apply (c : Dev nD) (t : Fin cfg1.N) (y : S512x4096.Idx) (i : S4096x4096.Idx)
    (h0 : (i 0).val = 512 * t.val + (y 0).val) (h1 : (i 1).val = (y 1).val) :
    (iblk1 V c 0 t : Vec Ideal S512x4096 .f32) y = (V c main_arg2 : S4096x4096.Idx → EReal) i := by
  obtain ⟨e0, e1⟩ := idx_0 t
  unfold iblk1
  rw [View.read_apply]
  show V c main_arg2 _ = V c main_arg2 _
  refine congrArg _ ?_
  funext a
  apply Fin.ext
  match a with
  | ⟨0, _⟩ => show win1_0.index t 0 * 512 + 1 * (y 0).val = (i 0).val; rw [e0, h0]; omega
  | ⟨1, _⟩ => show win1_0.index t 1 * 4096 + 1 * (y 1).val = (i 1).val; rw [e1, h1]; omega

/-- Window 1's block at point `t` is rows `512 t … 512 t + 511`, all 4096 columns, of the array its window stages. -/
theorem iblk_1_apply (c : Dev nD) (t : Fin cfg1.N) (y : S512x4096.Idx) (i : S4096x4096.Idx)
    (h0 : (i 0).val = 512 * t.val + (y 0).val) (h1 : (i 1).val = (y 1).val) :
    (iblk1 V c 1 t : Vec Ideal S512x4096 .f32) y = (V c main_arg3 : S4096x4096.Idx → EReal) i := by
  obtain ⟨e0, e1⟩ := idx_1 t
  unfold iblk1
  rw [View.read_apply]
  show V c main_arg3 _ = V c main_arg3 _
  refine congrArg _ ?_
  funext a
  apply Fin.ext
  match a with
  | ⟨0, _⟩ => show win1_1.index t 0 * 512 + 1 * (y 0).val = (i 0).val; rw [e0, h0]; omega
  | ⟨1, _⟩ => show win1_1.index t 1 * 4096 + 1 * (y 1).val = (i 1).val; rw [e1, h1]; omega

/-- Window 2's block at every point is the whole of the array its window stages. -/
theorem iblk_2_apply (c : Dev nD) (t : Fin cfg1.N) (y : S4096x512.Idx) :
    (iblk1 V c 2 t : Vec Ideal S4096x512 .bf16) y = (V c main_v0_0 : S4096x512.Idx → EReal) y := by
  obtain ⟨e0, e1⟩ := idx_2 t
  unfold iblk1
  rw [View.read_apply]
  show V c main_v0_0 _ = V c main_v0_0 _
  refine congrArg _ ?_
  funext a
  apply Fin.ext
  match a with
  | ⟨0, _⟩ => show win1_2.index t 0 * 4096 + 1 * (y 0).val = (y 0).val; rw [e0]; omega
  | ⟨1, _⟩ => show win1_2.index t 1 * 512 + 1 * (y 1).val = (y 1).val; rw [e1]; omega

/-- Window 3's block at every point is the whole of the array its window stages. -/
theorem iblk_3_apply (c : Dev nD) (t : Fin cfg1.N) (y : S4096x512.Idx) :
    (iblk1 V c 3 t : Vec Ideal S4096x512 .bf16) y = (V c main_v0_1 : S4096x512.Idx → EReal) y := by
  obtain ⟨e0, e1⟩ := idx_3 t
  unfold iblk1
  rw [View.read_apply]
  show V c main_v0_1 _ = V c main_v0_1 _
  refine congrArg _ ?_
  funext a
  apply Fin.ext
  match a with
  | ⟨0, _⟩ => show win1_3.index t 0 * 4096 + 1 * (y 0).val = (y 0).val; rw [e0]; omega
  | ⟨1, _⟩ => show win1_3.index t 1 * 512 + 1 * (y 1).val = (y 1).val; rw [e1]; omega

/-! ## Output window 4: the first product -/

/-- The body's value for window 4 at (p, q): row p of the left block against column q of the right one, all 4096
    terms (a change of float format and a cast to the same shape are the identity; the accumulator starts at zero). -/
theorem pay_4_apply (xl : Vec Ideal S512x4096 .f32) (xr : Vec Ideal S4096x512 .bf16) (p q : Fin 512) :
    k1_pay1 (F := Ideal) xl xr (ix2 p q) = ∑ k : Fin 4096, xl (ix2 p k) * xr (ix2 k q) := by
  unfold k1_pay1
  refine (Cert.Lib.PlainMatmul.plain_matmul_zero_apply (M := 512) (K := 4096) (N := 512) _ _ p q).trans ?_
  refine Finset.sum_congr rfl fun k _ => ?_
  exact congrArg₂ (· * ·) rfl (congrFun (shapeCast_self xr _) (ix2 k q))

/-- What point `t` writes back through window 4 is block `t` of the product of windows 0's and 2's arrays. -/
theorem flushed_4_eq (c : Dev nD) (t : Fin cfg1.N) :
    (dat1 V c).flushed 4 t = ((cfg1.win 4).blk t).view.read (Elt Ideal)
      (Cert.Layer.mul (a := 4096) (k := 4096) (b := 512) (V c main_arg2) (V c main_v0_0)) := by
  show (cfg1.win 4).cut (grid1.coords t) ((dat1 V c).after 4 t) = _
  rw [after1_4]
  unfold out1_4
  rw [View.canon_unit_zero hz]
  simp only [View.ld_unit_zero (S := S512x4096) hz, View.ld_unit_zero (S := S4096x512) hz]
  obtain ⟨e0, e1⟩ := idx_4 t
  funext j
  obtain ⟨p, q, rfl⟩ : ∃ (p q : Fin 512), j = ix2 p q := ⟨j 0, j 1, eq_ix2 j⟩
  show k1_pay1 (iblk1 V c 0 t) (iblk1 V c 2 t) (ix2 p q)
    = Cert.Layer.mulAt (a := 4096) (k := 4096) (b := 512) (V c main_arg2) (V c main_v0_0)
        ((((cfg1.win 4).blk t).view.emb (ix2 p q)) 0) ((((cfg1.win 4).blk t).view.emb (ix2 p q)) 1)
  refine (pay_4_apply _ _ p q).trans ?_
  unfold Cert.Layer.mulAt
  refine Finset.sum_congr rfl fun k _ => ?_
  refine congrArg₂ (· * ·) (iblk_0_apply V c t (ix2 p k) _ ?_ rfl) ((iblk_2_apply V c t (ix2 k q)).trans (congrArg _ ?_))
  · show win1_4.index t 0 * 512 + 1 * p.val = 512 * t.val + p.val
    rw [e0]; omega
  · funext a
    apply Fin.ext
    match a with
    | ⟨0, _⟩ => rfl
    | ⟨1, _⟩ => show q.val = win1_4.index t 1 * 512 + 1 * q.val; rw [e1]; omega

/-- An index of the array is in point `t`'s block of window 4 iff each coordinate is in the block's range. -/
theorem mem_blk_4 (t : Fin cfg1.N) (i : S4096x512.Idx) :
    i ∈ ((cfg1.win 4).blk t).view.set ↔ ∀ a : Fin 2, win1_4.index t a * S512x512.size a ≤ (i a).val
      ∧ (i a).val < win1_4.index t a * S512x512.size a + S512x512.size a := by
  show i ∈ ((View.whole main_v1_0).slice (win1_4.rect t)).set ↔ _
  rw [View.set_slice_whole, Rect.mem_set_unit]
  exact Iff.rfl

/-- Every row lies in the block of the point numbered by the row's quotient by 512: the blocks cover the array. -/
theorem cover_4 (i : S4096x512.Idx) :
    ∃ t : Fin cfg1.N, (cfg1.win 4).flush t = true ∧ i ∈ ((cfg1.win 4).blk t).view.set := by
  have hi0 : (i 0).val < 4096 := (i 0).isLt
  have hi1 : (i 1).val < 512 := (i 1).isLt
  have hN : cfg1.N = 8 := N_1
  have ht : (i 0).val / 512 < cfg1.N := by rw [hN]; omega
  refine ⟨⟨(i 0).val / 512, ht⟩, flush1_4 _, ?_⟩
  rw [mem_blk_4]
  obtain ⟨e0, e1⟩ := idx_4 ⟨(i 0).val / 512, ht⟩
  intro a
  match a with
  | ⟨0, _⟩ =>
    show win1_4.index ⟨(i 0).val / 512, ht⟩ 0 * 512 ≤ (i 0).val ∧ (i 0).val < win1_4.index ⟨(i 0).val / 512, ht⟩ 0 * 512 + 512
    rw [e0]; show (i 0).val / 512 * 512 ≤ (i 0).val ∧ (i 0).val < (i 0).val / 512 * 512 + 512; omega
  | ⟨1, _⟩ =>
    show win1_4.index ⟨(i 0).val / 512, ht⟩ 1 * 512 ≤ (i 1).val ∧ (i 1).val < win1_4.index ⟨(i 0).val / 512, ht⟩ 1 * 512 + 512
    rw [e1]; omega

/-- After the region, window 4's array is the whole matrix product. -/
theorem final_4 (c : Dev nD) : (dat1 V c).arrAt 4 cfg1.N
    = Cert.Layer.mul (a := 4096) (k := 4096) (b := 512) (V c main_arg2) (V c main_v0_0) :=
  (dat1 V c).arrAt_eq_of_cover 4 _ (fun t _ => flushed_4_eq V c t) cover_4

/-! ## Output window 5: the second product -/

/-- The body's value for window 5 at (p, q): row p of the left block against column q of the right one, all 4096
    terms (a change of float format and a cast to the same shape are the identity; the accumulator starts at zero). -/
theorem pay_5_apply (xl : Vec Ideal S512x4096 .f32) (xr : Vec Ideal S4096x512 .bf16) (p q : Fin 512) :
    k1_pay2 (F := Ideal) xl xr (ix2 p q) = ∑ k : Fin 4096, xl (ix2 p k) * xr (ix2 k q) := by
  unfold k1_pay2
  refine (Cert.Lib.PlainMatmul.plain_matmul_zero_apply (M := 512) (K := 4096) (N := 512) _ _ p q).trans ?_
  refine Finset.sum_congr rfl fun k _ => ?_
  exact congrArg₂ (· * ·) rfl (congrFun (shapeCast_self xr _) (ix2 k q))

/-- What point `t` writes back through window 5 is block `t` of the product of windows 1's and 3's arrays. -/
theorem flushed_5_eq (c : Dev nD) (t : Fin cfg1.N) :
    (dat1 V c).flushed 5 t = ((cfg1.win 5).blk t).view.read (Elt Ideal)
      (Cert.Layer.mul (a := 4096) (k := 4096) (b := 512) (V c main_arg3) (V c main_v0_1)) := by
  show (cfg1.win 5).cut (grid1.coords t) ((dat1 V c).after 5 t) = _
  rw [after1_5]
  unfold out1_5
  rw [View.canon_unit_zero hz]
  simp only [View.ld_unit_zero (S := S512x4096) hz, View.ld_unit_zero (S := S4096x512) hz]
  obtain ⟨e0, e1⟩ := idx_5 t
  funext j
  obtain ⟨p, q, rfl⟩ : ∃ (p q : Fin 512), j = ix2 p q := ⟨j 0, j 1, eq_ix2 j⟩
  show k1_pay2 (iblk1 V c 1 t) (iblk1 V c 3 t) (ix2 p q)
    = Cert.Layer.mulAt (a := 4096) (k := 4096) (b := 512) (V c main_arg3) (V c main_v0_1)
        ((((cfg1.win 5).blk t).view.emb (ix2 p q)) 0) ((((cfg1.win 5).blk t).view.emb (ix2 p q)) 1)
  refine (pay_5_apply _ _ p q).trans ?_
  unfold Cert.Layer.mulAt
  refine Finset.sum_congr rfl fun k _ => ?_
  refine congrArg₂ (· * ·) (iblk_1_apply V c t (ix2 p k) _ ?_ rfl) ((iblk_3_apply V c t (ix2 k q)).trans (congrArg _ ?_))
  · show win1_5.index t 0 * 512 + 1 * p.val = 512 * t.val + p.val
    rw [e0]; omega
  · funext a
    apply Fin.ext
    match a with
    | ⟨0, _⟩ => rfl
    | ⟨1, _⟩ => show q.val = win1_5.index t 1 * 512 + 1 * q.val; rw [e1]; omega

/-- An index of the array is in point `t`'s block of window 5 iff each coordinate is in the block's range. -/
theorem mem_blk_5 (t : Fin cfg1.N) (i : S4096x512.Idx) :
    i ∈ ((cfg1.win 5).blk t).view.set ↔ ∀ a : Fin 2, win1_5.index t a * S512x512.size a ≤ (i a).val
      ∧ (i a).val < win1_5.index t a * S512x512.size a + S512x512.size a := by
  show i ∈ ((View.whole main_v1_1).slice (win1_5.rect t)).set ↔ _
  rw [View.set_slice_whole, Rect.mem_set_unit]
  exact Iff.rfl

/-- Every row lies in the block of the point numbered by the row's quotient by 512: the blocks cover the array. -/
theorem cover_5 (i : S4096x512.Idx) :
    ∃ t : Fin cfg1.N, (cfg1.win 5).flush t = true ∧ i ∈ ((cfg1.win 5).blk t).view.set := by
  have hi0 : (i 0).val < 4096 := (i 0).isLt
  have hi1 : (i 1).val < 512 := (i 1).isLt
  have hN : cfg1.N = 8 := N_1
  have ht : (i 0).val / 512 < cfg1.N := by rw [hN]; omega
  refine ⟨⟨(i 0).val / 512, ht⟩, flush1_5 _, ?_⟩
  rw [mem_blk_5]
  obtain ⟨e0, e1⟩ := idx_5 ⟨(i 0).val / 512, ht⟩
  intro a
  match a with
  | ⟨0, _⟩ =>
    show win1_5.index ⟨(i 0).val / 512, ht⟩ 0 * 512 ≤ (i 0).val ∧ (i 0).val < win1_5.index ⟨(i 0).val / 512, ht⟩ 0 * 512 + 512
    rw [e0]; show (i 0).val / 512 * 512 ≤ (i 0).val ∧ (i 0).val < (i 0).val / 512 * 512 + 512; omega
  | ⟨1, _⟩ =>
    show win1_5.index ⟨(i 0).val / 512, ht⟩ 1 * 512 ≤ (i 1).val ∧ (i 1).val < win1_5.index ⟨(i 0).val / 512, ht⟩ 1 * 512 + 512
    rw [e1]; omega

/-- After the region, window 5's array is the whole matrix product. -/
theorem final_5 (c : Dev nD) : (dat1 V c).arrAt 5 cfg1.N
    = Cert.Layer.mul (a := 4096) (k := 4096) (b := 512) (V c main_arg3) (V c main_v0_1) :=
  (dat1 V c).arrAt_eq_of_cover 5 _ (fun t _ => flushed_5_eq V c t) cover_5

/-! ## Output window 6: the first product's partial column sums -/

/-- The body's value for window 6 at (u, v, q): the column sum, over the block's 512 rows, of the product it stores
    through window 4. -/
theorem pay_6_apply (xl : Vec Ideal S512x4096 .f32) (xr : Vec Ideal S4096x512 .bf16) (u v : Fin 1) (q : Fin 512) :
    k1_pay3 (F := Ideal) xl xr (ix3 u v q) = ∑ r : Fin 512, ∑ k : Fin 4096, xl (ix2 r k) * xr (ix2 k q) := by
  unfold k1_pay3
  refine (Cert.Lib.UnitAxisReads.shapeCast_b_11b_apply (b := 512) _ _ u v q).trans ?_
  refine (Cert.Lib.ColSum.colSum_apply (A := 512) (K := 512) _ _ _ _ _ q).trans ?_
  exact Finset.sum_congr rfl fun r _ => pay_4_apply xl xr r q

/-- What point `t` writes back through window 6 is block `t` of the partial column sums of the product: entry
    `(t, 0, q)` is the sum of column `q` over rows `512 t … 512 t + 511`. -/
theorem flushed_6_eq (c : Dev nD) (t : Fin cfg1.N) :
    (dat1 V c).flushed 6 t = ((cfg1.win 6).blk t).view.read (Elt Ideal)
      (Cert.Layer.partials (a := 4096) (b := 512) (g := 8) (h := 512) (by decide)
        (Cert.Layer.mul (a := 4096) (k := 4096) (b := 512) (V c main_arg2) (V c main_v0_0))) := by
  show (cfg1.win 6).cut (grid1.coords t) ((dat1 V c).after 6 t) = _
  rw [after1_6]
  unfold out1_6
  rw [View.canon_unit_zero hz3]
  simp only [View.ld_unit_zero (S := S512x4096) hz, View.ld_unit_zero (S := S4096x512) hz]
  obtain ⟨e0, e1, e2⟩ := idx_6 t
  funext j
  obtain ⟨u, v, q, rfl⟩ : ∃ (u v : Fin 1) (q : Fin 512), j = ix3 u v q := ⟨j 0, j 1, j 2, eq_ix3 j⟩
  have hu : u.val = 0 := by omega
  have hb0 : ((((cfg1.win 6).blk t).view.emb (ix3 u v q)) 0).val = t.val := by
    show win1_6.index t 0 * 1 + 1 * u.val = t.val
    rw [e0, hu]; omega
  have hb2 : ((((cfg1.win 6).blk t).view.emb (ix3 u v q)) 2).val = q.val := by
    show win1_6.index t 2 * 512 + 1 * q.val = q.val
    rw [e2]; omega
  show k1_pay3 (iblk1 V c 0 t) (iblk1 V c 2 t) (ix3 u v q)
    = Cert.Layer.partialColSum (a := 4096) (b := 512) (g := 8) (h := 512) (by decide)
        (Cert.Layer.mul (a := 4096) (k := 4096) (b := 512) (V c main_arg2) (V c main_v0_0))
        ((((cfg1.win 6).blk t).view.emb (ix3 u v q)) 0) ((((cfg1.win 6).blk t).view.emb (ix3 u v q)) 2)
  refine (pay_6_apply _ _ u v q).trans ?_
  unfold Cert.Layer.partialColSum
  refine Finset.sum_congr rfl fun r _ => ?_
  show _ = Cert.Layer.mulAt (a := 4096) (k := 4096) (b := 512) (V c main_arg2) (V c main_v0_0) _ _
  unfold Cert.Layer.mulAt
  refine Finset.sum_congr rfl fun k _ => ?_
  refine congrArg₂ (· * ·) (iblk_0_apply V c t (ix2 r k) _ ?_ rfl) ((iblk_2_apply V c t (ix2 k q)).trans (congrArg _ ?_))
  · show ((((cfg1.win 6).blk t).view.emb (ix3 u v q)) 0).val * 512 + r.val = 512 * t.val + r.val
    rw [hb0]; omega
  · funext a
    apply Fin.ext
    match a with
    | ⟨0, _⟩ => rfl
    | ⟨1, _⟩ => exact hb2.symm

/-- An index of the `[8, 1, 512]` array is in point `t`'s block of window 6 iff each coordinate is in range. -/
theorem mem_blk_6 (t : Fin cfg1.N) (i : S8x1x512.Idx) :
    i ∈ ((cfg1.win 6).blk t).view.set ↔ ∀ a : Fin 3, win1_6.index t a * S1x1x512.size a ≤ (i a).val
      ∧ (i a).val < win1_6.index t a * S1x1x512.size a + S1x1x512.size a := by
  show i ∈ ((View.whole main_v1_2).slice (win1_6.rect t)).set ↔ _
  rw [View.set_slice_whole, Rect.mem_set_unit]
  exact Iff.rfl

/-- Entry `(t, 0, q)` lies in point `t`'s block: the 8 blocks cover the array. -/
theorem cover_6 (i : S8x1x512.Idx) :
    ∃ t : Fin cfg1.N, (cfg1.win 6).flush t = true ∧ i ∈ ((cfg1.win 6).blk t).view.set := by
  have hi0 : (i 0).val < 8 := (i 0).isLt
  have hi1 : (i 1).val < 1 := (i 1).isLt
  have hi2 : (i 2).val < 512 := (i 2).isLt
  have hN : cfg1.N = 8 := N_1
  have ht : (i 0).val < cfg1.N := by rw [hN]; omega
  refine ⟨⟨(i 0).val, ht⟩, flush1_6 _, ?_⟩
  rw [mem_blk_6]
  obtain ⟨e0, e1, e2⟩ := idx_6 ⟨(i 0).val, ht⟩
  intro a
  match a with
  | ⟨0, _⟩ =>
    show win1_6.index ⟨(i 0).val, ht⟩ 0 * 1 ≤ (i 0).val ∧ (i 0).val < win1_6.index ⟨(i 0).val, ht⟩ 0 * 1 + 1
    rw [e0]; show (i 0).val * 1 ≤ (i 0).val ∧ (i 0).val < (i 0).val * 1 + 1; omega
  | ⟨1, _⟩ =>
    show win1_6.index ⟨(i 0).val, ht⟩ 1 * 1 ≤ (i 1).val ∧ (i 1).val < win1_6.index ⟨(i 0).val, ht⟩ 1 * 1 + 1
    rw [e1]; omega
  | ⟨2, _⟩ =>
    show win1_6.index ⟨(i 0).val, ht⟩ 2 * 512 ≤ (i 2).val ∧ (i 2).val < win1_6.index ⟨(i 0).val, ht⟩ 2 * 512 + 512
    rw [e2]; omega

/-- After the region, window 6's array holds the partial column sums of the product, one block of 512 rows each. -/
theorem final_6 (c : Dev nD) : (dat1 V c).arrAt 6 cfg1.N
    = Cert.Layer.partials (a := 4096) (b := 512) (g := 8) (h := 512) (by decide)
        (Cert.Layer.mul (a := 4096) (k := 4096) (b := 512) (V c main_arg2) (V c main_v0_0)) :=
  (dat1 V c).arrAt_eq_of_cover 6 _ (fun t _ => flushed_6_eq V c t) cover_6

/-! ## Output window 7: the second product's partial column sums -/

/-- The body's value for window 7 at (u, v, q): the column sum, over the block's 512 rows, of the product it stores
    through window 5. -/
theorem pay_7_apply (xl : Vec Ideal S512x4096 .f32) (xr : Vec Ideal S4096x512 .bf16) (u v : Fin 1) (q : Fin 512) :
    k1_pay4 (F := Ideal) xl xr (ix3 u v q) = ∑ r : Fin 512, ∑ k : Fin 4096, xl (ix2 r k) * xr (ix2 k q) := by
  unfold k1_pay4
  refine (Cert.Lib.UnitAxisReads.shapeCast_b_11b_apply (b := 512) _ _ u v q).trans ?_
  refine (Cert.Lib.ColSum.colSum_apply (A := 512) (K := 512) _ _ _ _ _ q).trans ?_
  exact Finset.sum_congr rfl fun r _ => pay_5_apply xl xr r q

/-- What point `t` writes back through window 7 is block `t` of the partial column sums of the product: entry
    `(t, 0, q)` is the sum of column `q` over rows `512 t … 512 t + 511`. -/
theorem flushed_7_eq (c : Dev nD) (t : Fin cfg1.N) :
    (dat1 V c).flushed 7 t = ((cfg1.win 7).blk t).view.read (Elt Ideal)
      (Cert.Layer.partials (a := 4096) (b := 512) (g := 8) (h := 512) (by decide)
        (Cert.Layer.mul (a := 4096) (k := 4096) (b := 512) (V c main_arg3) (V c main_v0_1))) := by
  show (cfg1.win 7).cut (grid1.coords t) ((dat1 V c).after 7 t) = _
  rw [after1_7]
  unfold out1_7
  rw [View.canon_unit_zero hz3]
  simp only [View.ld_unit_zero (S := S512x4096) hz, View.ld_unit_zero (S := S4096x512) hz]
  obtain ⟨e0, e1, e2⟩ := idx_7 t
  funext j
  obtain ⟨u, v, q, rfl⟩ : ∃ (u v : Fin 1) (q : Fin 512), j = ix3 u v q := ⟨j 0, j 1, j 2, eq_ix3 j⟩
  have hu : u.val = 0 := by omega
  have hb0 : ((((cfg1.win 7).blk t).view.emb (ix3 u v q)) 0).val = t.val := by
    show win1_7.index t 0 * 1 + 1 * u.val = t.val
    rw [e0, hu]; omega
  have hb2 : ((((cfg1.win 7).blk t).view.emb (ix3 u v q)) 2).val = q.val := by
    show win1_7.index t 2 * 512 + 1 * q.val = q.val
    rw [e2]; omega
  show k1_pay4 (iblk1 V c 1 t) (iblk1 V c 3 t) (ix3 u v q)
    = Cert.Layer.partialColSum (a := 4096) (b := 512) (g := 8) (h := 512) (by decide)
        (Cert.Layer.mul (a := 4096) (k := 4096) (b := 512) (V c main_arg3) (V c main_v0_1))
        ((((cfg1.win 7).blk t).view.emb (ix3 u v q)) 0) ((((cfg1.win 7).blk t).view.emb (ix3 u v q)) 2)
  refine (pay_7_apply _ _ u v q).trans ?_
  unfold Cert.Layer.partialColSum
  refine Finset.sum_congr rfl fun r _ => ?_
  show _ = Cert.Layer.mulAt (a := 4096) (k := 4096) (b := 512) (V c main_arg3) (V c main_v0_1) _ _
  unfold Cert.Layer.mulAt
  refine Finset.sum_congr rfl fun k _ => ?_
  refine congrArg₂ (· * ·) (iblk_1_apply V c t (ix2 r k) _ ?_ rfl) ((iblk_3_apply V c t (ix2 k q)).trans (congrArg _ ?_))
  · show ((((cfg1.win 7).blk t).view.emb (ix3 u v q)) 0).val * 512 + r.val = 512 * t.val + r.val
    rw [hb0]; omega
  · funext a
    apply Fin.ext
    match a with
    | ⟨0, _⟩ => rfl
    | ⟨1, _⟩ => exact hb2.symm

/-- An index of the `[8, 1, 512]` array is in point `t`'s block of window 7 iff each coordinate is in range. -/
theorem mem_blk_7 (t : Fin cfg1.N) (i : S8x1x512.Idx) :
    i ∈ ((cfg1.win 7).blk t).view.set ↔ ∀ a : Fin 3, win1_7.index t a * S1x1x512.size a ≤ (i a).val
      ∧ (i a).val < win1_7.index t a * S1x1x512.size a + S1x1x512.size a := by
  show i ∈ ((View.whole main_v1_3).slice (win1_7.rect t)).set ↔ _
  rw [View.set_slice_whole, Rect.mem_set_unit]
  exact Iff.rfl

/-- Entry `(t, 0, q)` lies in point `t`'s block: the 8 blocks cover the array. -/
theorem cover_7 (i : S8x1x512.Idx) :
    ∃ t : Fin cfg1.N, (cfg1.win 7).flush t = true ∧ i ∈ ((cfg1.win 7).blk t).view.set := by
  have hi0 : (i 0).val < 8 := (i 0).isLt
  have hi1 : (i 1).val < 1 := (i 1).isLt
  have hi2 : (i 2).val < 512 := (i 2).isLt
  have hN : cfg1.N = 8 := N_1
  have ht : (i 0).val < cfg1.N := by rw [hN]; omega
  refine ⟨⟨(i 0).val, ht⟩, flush1_7 _, ?_⟩
  rw [mem_blk_7]
  obtain ⟨e0, e1, e2⟩ := idx_7 ⟨(i 0).val, ht⟩
  intro a
  match a with
  | ⟨0, _⟩ =>
    show win1_7.index ⟨(i 0).val, ht⟩ 0 * 1 ≤ (i 0).val ∧ (i 0).val < win1_7.index ⟨(i 0).val, ht⟩ 0 * 1 + 1
    rw [e0]; show (i 0).val * 1 ≤ (i 0).val ∧ (i 0).val < (i 0).val * 1 + 1; omega
  | ⟨1, _⟩ =>
    show win1_7.index ⟨(i 0).val, ht⟩ 1 * 1 ≤ (i 1).val ∧ (i 1).val < win1_7.index ⟨(i 0).val, ht⟩ 1 * 1 + 1
    rw [e1]; omega
  | ⟨2, _⟩ =>
    show win1_7.index ⟨(i 0).val, ht⟩ 2 * 512 ≤ (i 2).val ∧ (i 2).val < win1_7.index ⟨(i 0).val, ht⟩ 2 * 512 + 512
    rw [e2]; omega

/-- After the region, window 7's array holds the partial column sums of the product, one block of 512 rows each. -/
theorem final_7 (c : Dev nD) : (dat1 V c).arrAt 7 cfg1.N
    = Cert.Layer.partials (a := 4096) (b := 512) (g := 8) (h := 512) (by decide)
        (Cert.Layer.mul (a := 4096) (k := 4096) (b := 512) (V c main_arg3) (V c main_v0_1)) :=
  (dat1 V c).arrAt_eq_of_cover 7 _ (fun t _ => flushed_7_eq V c t) cover_7

end Cert.KernelIdeal.Neighbour

end
-- ==== Proof.LibBroadcastReads.lean ====
/- Small layout reads at coordinates, for any extents and any element type: a column `[a, 1]` broadcast along the lanes
   to `[a, b]` (a vector `broadcast` and a host `broadcast_in_dim` with dims [0, 1]), a row `[1, b]` broadcast down the
   rows by a host `broadcast_in_dim` with dims [0, 1], a vector `[a]` made a column `[a, 1]` (dims [0]) and a vector `[b]`
   made a row `[1, b]` (dims [1]). Each reads the operand at the coordinate that survives; the unit axis reads at 0.
   Nothing here depends on a particular program. -/
import Idealize.ShloMosaic.Lib.Pipeline.Value
import Idealize.ShloMosaic.Lib.ValueIdx

noncomputable section

open Idealize.ShloMosaic Idealize.ShloMosaic.ValueIdx

namespace Cert.Lib.BroadcastReads

variable {α : Type}

/-- A vector broadcast of a column `[a, 1]` to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A host broadcast (dims [0, 1]) of a column `[a, 1]` to `[a, b]` reads, at `(p, c)`, the column at row `p`. -/
theorem broadcastInDim_a1_ab_apply {a b : ℕ} (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) := by
  refine broadcastInDim_apply _ h v (ix2 p c) (ix2 p (0 : Fin 1)) fun ax => ?_
  match ax with
  | ⟨0, _⟩ =>
    show p.val = if a = 1 then 0 else p.val
    split
    · have := p.isLt; omega
    · rfl
  | ⟨1, _⟩ => rfl

/-- A host broadcast (dims [0, 1]) of a row `[1, b]` to `[a, b]` reads, at `(p, c)`, the row at column `c`. -/
theorem broadcastInDim_1b_ab_apply {a b : ℕ} (v : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h v (ix2 p c) = v (ix2 (0 : Fin 1) c) := by
  refine broadcastInDim_apply _ h v (ix2 p c) (ix2 (0 : Fin 1) c) fun ax => ?_
  match ax with
  | ⟨0, _⟩ => rfl
  | ⟨1, _⟩ =>
    show c.val = if b = 1 then 0 else c.val
    split
    · have := c.isLt; omega
    · rfl

/-- A vector `[a]` made a column `[a, 1]` by a host broadcast (dims [0]) reads, at `(p, z)`, the vector at `p`. -/
theorem broadcastInDim_a_a1_apply {a : ℕ} (v : (⟨1, ![a]⟩ : Shape).Idx → α)
    (h : (⟨1, ![a]⟩ : Shape).BroadcastsInDim ⟨2, ![a, 1]⟩ ![0]) (p : Fin a) (z : Fin 1) :
    broadcastInDim ⟨2, ![a, 1]⟩ ![0] h v (ix2 p z) = v (ix1 p) := by
  refine broadcastInDim_apply _ h v (ix2 p z) (ix1 p) fun ax => ?_
  match ax with
  | ⟨0, _⟩ =>
    show p.val = if a = 1 then 0 else p.val
    split
    · have := p.isLt; omega
    · rfl

/-- A vector `[b]` made a row `[1, b]` by a host broadcast (dims [1]) reads, at `(z, c)`, the vector at `c`. -/
theorem broadcastInDim_b_1b_apply {b : ℕ} (v : (⟨1, ![b]⟩ : Shape).Idx → α)
    (h : (⟨1, ![b]⟩ : Shape).BroadcastsInDim ⟨2, ![1, b]⟩ ![1]) (z : Fin 1) (c : Fin b) :
    broadcastInDim ⟨2, ![1, b]⟩ ![1] h v (ix2 z c) = v (ix1 c) := by
  refine broadcastInDim_apply _ h v (ix2 z c) (ix1 c) fun ax => ?_
  match ax with
  | ⟨0, _⟩ =>
    show c.val = if b = 1 then 0 else c.val
    split
    · have := c.isLt; omega
    · rfl

end Cert.Lib.BroadcastReads

end
-- ==== Proof.LibColumnReads.lean ====
/- Column layouts read at coordinates, for any extents and any element type: a vector `[a]` cast to a column `[a, 1]`
   and back, one column of an `[a, b]` array taken as a unit-stride slice `[a, 1]`, and `N` columns `[a, 1]` laid side by
   side along axis 1 into `[a, N]`.  Each reads the operand at the coordinates that survive, the unit axis at 0.
   Nothing here depends on a particular program. -/
import Idealize.ShloMosaic.Lib.Pipeline.Value
import Idealize.ShloMosaic.Lib.ValueIdx

noncomputable section

open Idealize.ShloMosaic Idealize.ShloMosaic.ValueIdx

namespace Cert.Lib.ColumnReads

variable {α : Type}

/-- A vector `[a]` cast to a column `[a, 1]` reads, at `(p, z)`, the vector at `p`: both sit at row-major position `p`. -/
theorem shapeCast_a_a1_apply {a : ℕ} (v : (⟨1, ![a]⟩ : Shape).Idx → α) (h : (⟨1, ![a]⟩ : Shape).ShapeCasts ⟨2, ![a, 1]⟩)
    (p : Fin a) (z : Fin 1) : shapeCast ⟨2, ![a, 1]⟩ v h (ix2 p z) = v (ix1 p) := by
  refine shapeCast_apply v h (ix2 p z) (ix1 p) ?_
  rw [Shape.rowMajor_val_one, Shape.rowMajor_val_two]
  show p.val = p.val * 1 + z.val
  have := z.isLt; omega

/-- A column `[a, 1]` cast to a vector `[a]` reads, at `p`, the column at `(p, 0)`. -/
theorem shapeCast_a1_a_apply {a : ℕ} (v : (⟨2, ![a, 1]⟩ : Shape).Idx → α) (h : (⟨2, ![a, 1]⟩ : Shape).ShapeCasts ⟨1, ![a]⟩)
    (p : Fin a) : shapeCast ⟨1, ![a]⟩ v h (ix1 p) = v (ix2 p (0 : Fin 1)) := by
  refine shapeCast_apply v h (ix1 p) (ix2 p (0 : Fin 1)) ?_
  rw [Shape.rowMajor_val_one, Shape.rowMajor_val_two]
  show p.val * 1 + 0 = p.val
  omega

/-- Column `o` of an `[a, b]` array, taken as the unit-stride slice `[a, 1]` at offsets `(0, o)`, reads at `(p, z)` the
    array at `(p, o)`. -/
theorem slice_column_apply {a b : ℕ} (o : ℕ) (ho : o < b) (x : (⟨2, ![a, b]⟩ : Shape).Idx → α)
    (h : (⟨2, ![a, b]⟩ : Shape).Slices ![0, o] ⟨2, ![a, 1]⟩) (p : Fin a) (z : Fin 1) :
    extractStridedSlice ⟨2, ![a, 1]⟩ ![0, o] x h (ix2 p z) = x (ix2 p (⟨o, ho⟩ : Fin b)) := by
  refine extractStridedSlice_apply _ x h (ix2 p z) (ix2 p (⟨o, ho⟩ : Fin b)) fun ax => ?_
  match ax with
  | ⟨0, _⟩ => show p.val = 0 + p.val; omega
  | ⟨1, _⟩ => show o = o + z.val; have := z.isLt; omega

/-- `N` columns `[a, 1]` laid side by side along axis 1 read, at `(p, n)`, column `n` at `(p, 0)`. -/
theorem concat_columns_apply {a N : ℕ} (f : Fin N → ((⟨2, ![a, 1]⟩ : Shape).Idx → α))
    (h : Shape.Concatenates ((List.ofFn fun n : Fin N => (⟨⟨2, ![a, 1]⟩, f n⟩ : (s : Shape) × (s.Idx → α))).map (·.1))
      ⟨2, ![a, N]⟩ (1 : Fin 2))
    (p : Fin a) (n : Fin N) :
    concatenate ⟨2, ![a, N]⟩ (1 : Fin 2) (List.ofFn fun n : Fin N => (⟨⟨2, ![a, 1]⟩, f n⟩ : (s : Shape) × (s.Idx → α))) h (ix2 p n)
      = f n (ix2 p (0 : Fin 1)) := by
  refine concatenate_ofFn_unit_apply (t := ⟨2, ![a, N]⟩) (s₁ := ⟨2, ![a, 1]⟩) (1 : Fin 2) f h rfl rfl (ix2 p n) n rfl
    (ix2 p (0 : Fin 1)) fun b hb => ?_
  match b with
  | ⟨0, _⟩ => rfl
  | ⟨1, _⟩ => exact absurd rfl hb

end Cert.Lib.ColumnReads

end
-- ==== Proof.Aggregate.lean ====
/-
  The third kernel region, read as a value: the layer's result from its two messages and their partial column sums.
  Its grid has 8 points; point `t` fetches rows `512 t … 512 t + 511` of each message and the whole of each array of
  partial column sums. A row's weight depends on that row alone and on the column totals (the partial sums added over
  their leading axis), and an entry of the result depends on its own row's two weights and the two messages' entries
  there. So the block written at point `t` is the same block of the layer's result computed from the whole arrays,
  and the 8 row blocks cover the 4096 rows. Everything is stated at the contents `V` the region is entered with.
-/
import proofs.«146514_g24807731102122_cont_sun_c4_61_5_alg».proof.Proof.Gen.KernelIdeal.Frame
import proofs.«146514_g24807731102122_cont_sun_c4_61_5_alg».proof.Proof.Layer
import proofs.«146514_g24807731102122_cont_sun_c4_61_5_alg».proof.Proof.LayerParts
import proofs.«146514_g24807731102122_cont_sun_c4_61_5_alg».proof.Proof.LibPlainMatmul
import proofs.«146514_g24807731102122_cont_sun_c4_61_5_alg».proof.Proof.LibUnitAxisReads
import proofs.«146514_g24807731102122_cont_sun_c4_61_5_alg».proof.Proof.LibBroadcastReads
import proofs.«146514_g24807731102122_cont_sun_c4_61_5_alg».proof.Proof.LibColumnReads
import Idealize.ShloMosaic.Lib.ValueLayout
import Idealize.ShloMosaic.Lib.Pipeline.Value
import Idealize.ShloMosaic.Lib.ValueIdx

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.Aggregate

open Cert.KernelIdeal Cert.KernelIdeal.Gen Cert.Layer

variable (V : (c : Dev nD) → (b : Ref sig .tc) → Buf (Elt Ideal) ((c : Thread nD τ).loc b))

theorem hz : (![0, 0] : Fin 2 → Nat) = fun _ => 0 := funext fun a => by fin_cases a <;> rfl
theorem hz3 : (![0, 0, 0] : Fin 3 → Nat) = fun _ => 0 := funext fun a => by fin_cases a <;> rfl

/-! ## The printed index maps, decided over the 8 grid points -/

theorem idx_0 : ∀ t : Fin cfg2.N, win2_0.index t (0 : Fin 2) = t.val ∧ win2_0.index t (1 : Fin 2) = 0 :=
  (by decide +kernel : ∀ t : Fin grid2.N, _)
theorem idx_1 : ∀ t : Fin cfg2.N, win2_1.index t (0 : Fin 2) = t.val ∧ win2_1.index t (1 : Fin 2) = 0 :=
  (by decide +kernel : ∀ t : Fin grid2.N, _)
theorem idx_2 : ∀ t : Fin cfg2.N,
    win2_2.index t (0 : Fin 3) = 0 ∧ win2_2.index t (1 : Fin 3) = 0 ∧ win2_2.index t (2 : Fin 3) = 0 :=
  (by decide +kernel : ∀ t : Fin grid2.N, _)
theorem idx_3 : ∀ t : Fin cfg2.N,
    win2_3.index t (0 : Fin 3) = 0 ∧ win2_3.index t (1 : Fin 3) = 0 ∧ win2_3.index t (2 : Fin 3) = 0 :=
  (by decide +kernel : ∀ t : Fin grid2.N, _)
theorem idx_4 : ∀ t : Fin cfg2.N, win2_4.index t (0 : Fin 2) = t.val ∧ win2_4.index t (1 : Fin 2) = 0 :=
  (by decide +kernel : ∀ t : Fin grid2.N, _)

/-! ## The input blocks as parts of their arrays -/

/-- Window 0's block at point `t` is rows `512 t … 512 t + 511` of the first message. -/
theorem iblk_0_apply (c : Dev nD) (t : Fin cfg2.N) (y : S512x512.Idx) (i : S4096x512.Idx)
    (h0 : (i 0).val = 512 * t.val + (y 0).val) (h1 : (i 1).val = (y 1).val) :
    (iblk2 V c 0 t : Vec Ideal S512x512 .f32) y = (V c main_v1_0 : S4096x512.Idx → EReal) i := by
  obtain ⟨e0, e1⟩ := idx_0 t
  unfold iblk2
  rw [View.read_apply]
  show V c main_v1_0 _ = V c main_v1_0 _
  refine congrArg _ ?_
  funext a
  apply Fin.ext
  match a with
  | ⟨0, _⟩ => show win2_0.index t 0 * 512 + 1 * (y 0).val = (i 0).val; rw [e0, h0]; omega
  | ⟨1, _⟩ => show win2_0.index t 1 * 512 + 1 * (y 1).val = (i 1).val; rw [e1, h1]; omega

/-- Window 1's block at point `t` is rows `512 t … 512 t + 511` of the second message. -/
theorem iblk_1_apply (c : Dev nD) (t : Fin cfg2.N) (y : S512x512.Idx) (i : S4096x512.Idx)
    (h0 : (i 0).val = 512 * t.val + (y 0).val) (h1 : (i 1).val = (y 1).val) :
    (iblk2 V c 1 t : Vec Ideal S512x512 .f32) y = (V c main_v1_1 : S4096x512.Idx → EReal) i := by
  obtain ⟨e0, e1⟩ := idx_1 t
  unfold iblk2
  rw [View.read_apply]
  show V c main_v1_1 _ = V c main_v1_1 _
  refine congrArg _ ?_
  funext a
  apply Fin.ext
  match a with
  | ⟨0, _⟩ => show win2_1.index t 0 * 512 + 1 * (y 0).val = (i 0).val; rw [e0, h0]; omega
  | ⟨1, _⟩ => show win2_1.index t 1 * 512 + 1 * (y 1).val = (i 1).val; rw [e1, h1]; omega

/-- Window 2's block at every point is the whole array of the first message's partial column sums. -/
theorem iblk_2_apply (c : Dev nD) (t : Fin cfg2.N) (y : S8x1x512.Idx) :
    (iblk2 V c 2 t : Vec Ideal S8x1x512 .f32) y = (V c main_v1_2 : S8x1x512.Idx → EReal) y := by
  obtain ⟨e0, e1, e2⟩ := idx_2 t
  unfold iblk2
  rw [View.read_apply]
  show V c main_v1_2 _ = V c main_v1_2 _
  refine congrArg _ ?_
  funext a
  apply Fin.ext
  match a with
  | ⟨0, _⟩ => show win2_2.index t 0 * 8 + 1 * (y 0).val = (y 0).val; rw [e0]; omega
  | ⟨1, _⟩ => show win2_2.index t 1 * 1 + 1 * (y 1).val = (y 1).val; rw [e1]; omega
  | ⟨2, _⟩ => show win2_2.index t 2 * 512 + 1 * (y 2).val = (y 2).val; rw [e2]; omega

/-- Window 3's block at every point is the whole array of the second message's partial column sums. -/
theorem iblk_3_apply (c : Dev nD) (t : Fin cfg2.N) (y : S8x1x512.Idx) :
    (iblk2 V c 3 t : Vec Ideal S8x1x512 .f32) y = (V c main_v1_3 : S8x1x512.Idx → EReal) y := by
  obtain ⟨e0, e1, e2⟩ := idx_3 t
  unfold iblk2
  rw [View.read_apply]
  show V c main_v1_3 _ = V c main_v1_3 _
  refine congrArg _ ?_
  funext a
  apply Fin.ext
  match a with
  | ⟨0, _⟩ => show win2_3.index t 0 * 8 + 1 * (y 0).val = (y 0).val; rw [e0]; omega
  | ⟨1, _⟩ => show win2_3.index t 1 * 1 + 1 * (y 1).val = (y 1).val; rw [e1]; omega
  | ⟨2, _⟩ => show win2_3.index t 2 * 512 + 1 * (y 2).val = (y 2).val; rw [e2]; omega

/-- The totals of window 2's block are the totals of the whole array of partial sums, at every point. -/
theorem totals_blk_2 (c : Dev nD) (t : Fin cfg2.N) :
    totals (g := 8) (b := 512) (iblk2 V c 2 t : Vec Ideal S8x1x512 .f32)
      = totals (g := 8) (b := 512) (V c main_v1_2 : S8x1x512.Idx → EReal) :=
  funext fun q => Finset.sum_congr rfl fun r _ => iblk_2_apply V c t (ix3 r (0 : Fin 1) q)

/-- The totals of window 3's block are the totals of the whole array of partial sums, at every point. -/
theorem totals_blk_3 (c : Dev nD) (t : Fin cfg2.N) :
    totals (g := 8) (b := 512) (iblk2 V c 3 t : Vec Ideal S8x1x512 .f32)
      = totals (g := 8) (b := 512) (V c main_v1_3 : S8x1x512.Idx → EReal) :=
  funext fun q => Finset.sum_congr rfl fun r _ => iblk_3_apply V c t (ix3 r (0 : Fin 1) q)

/-- Row p's score within window 0's block is the score of row `512 t + p` of the first message, for any totals. -/
theorem score_blk_0 (c : Dev nD) (t : Fin cfg2.N) (sx : Fin 512 → EReal) (p : Fin 512) (i0 : Fin 4096)
    (h0 : i0.val = 512 * t.val + p.val) :
    scoreOf (a := 512) (b := 512) (iblk2 V c 0 t : Vec Ideal S512x512 .f32) sx p
      = scoreOf (a := 4096) (b := 512) (V c main_v1_0 : S4096x512.Idx → EReal) sx i0 :=
  Finset.sum_congr rfl fun k _ => congrArg (· * max (sx k) zeroW) (iblk_0_apply V c t (ix2 p k) (ix2 i0 k) h0 rfl)

/-- Row p's score within window 1's block is the score of row `512 t + p` of the second message, for any totals. -/
theorem score_blk_1 (c : Dev nD) (t : Fin cfg2.N) (sx : Fin 512 → EReal) (p : Fin 512) (i0 : Fin 4096)
    (h0 : i0.val = 512 * t.val + p.val) :
    scoreOf (a := 512) (b := 512) (iblk2 V c 1 t : Vec Ideal S512x512 .f32) sx p
      = scoreOf (a := 4096) (b := 512) (V c main_v1_1 : S4096x512.Idx → EReal) sx i0 :=
  Finset.sum_congr rfl fun k _ => congrArg (· * max (sx k) zeroW) (iblk_1_apply V c t (ix2 p k) (ix2 i0 k) h0 rfl)

/-! ## The body's values at an index -/

/-- The totals of a block of partial sums, rectified, at (u, q): the sum over the leading coordinate of the block at
    (t, u, q), then the larger of that and the zero word. -/
theorem rect_apply (s : Vec Ideal S8x1x512 .f32) (q : Fin 512) :
    max (multiReduction (F := Ideal) .add [0] S1x512 (shapeCast S8x1x512 s shapeCasts_S8x1x512_S8x1x512) 0x00000000#32
        reduces_S8x1x512_S1x512 (.inl rfl) rfl (ix2 (0 : Fin 1) q)) zeroW
      = max (totals (g := 8) (b := 512) s q) zeroW := by
  refine congrArg (fun a => max a zeroW) ?_
  refine (Cert.Lib.UnitAxisReads.leadSum_apply (n := 8) (b := 512) _ _ _ _ _ (0 : Fin 1) q).trans ?_
  exact Finset.sum_congr rfl fun t _ => congrFun (shapeCast_self s _) _

/-- Row p's score within a block: the row's entries against the rectified totals, summed along the row. -/
theorem score_apply (s : Vec Ideal S8x1x512 .f32) (x : Vec Ideal S512x512 .f32) (p : Fin 512) (z : Fin 1) :
    shapeCast S512x1
        (multiReduction (F := Ideal) .add [1] S512
          (mulf (shapeCast S512x512 x shapeCasts_S512x512_S512x512)
            (broadcastTo S512x512
              (maximumf
                (multiReduction .add [0] S1x512 (shapeCast S8x1x512 s shapeCasts_S8x1x512_S8x1x512) 0x00000000#32
                  reduces_S8x1x512_S1x512 (.inl rfl) rfl)
                (broadcast S1x512 (FloatOps.ofBits .f32 0x00000000#32)))
              broadcasts_S1x512_S512x512))
          0x00000000#32 reduces_S512x512_S512_2 (.inl rfl) rfl)
        shapeCasts_S512_S512x1 (ix2 p z)
      = scoreOf (a := 512) (b := 512) x (totals (g := 8) (b := 512) s) p := by
  refine (Cert.Lib.ColumnReads.shapeCast_a_a1_apply (a := 512) _ _ p z).trans ?_
  refine (Cert.Lib.PlainMatmul.rowSum_apply (A := 512) (K := 512) _ _ _ _ _ p).trans ?_
  unfold scoreOf
  refine Finset.sum_congr rfl fun k _ => ?_
  show shapeCast S512x512 x shapeCasts_S512x512_S512x512 (ix2 p k) * broadcastTo S512x512 _ broadcasts_S1x512_S512x512 (ix2 p k) = _
  refine congrArg₂ (· * ·) (congrFun (shapeCast_self x _) _) ((broadcastTo_1b_ab_apply (a := 512) (b := 512) _ _ p k).trans ?_)
  exact rect_apply s k

/-- The first message's weight of row p within a block: the logistic function (negation spelt as a subtraction from
    the zero word) of the row's score. -/
theorem pay4_apply (s : Vec Ideal S8x1x512 .f32) (x : Vec Ideal S512x512 .f32) (p : Fin 512) (z : Fin 1) :
    k2_pay4 (F := Ideal) s x (ix2 p z)
      = logisticK (scoreOf (a := 512) (b := 512) x (totals (g := 8) (b := 512) s) p) := by
  unfold k2_pay4 k2_pay2
  show Ideal.div oneW (oneW + Ideal.exp (zeroW - _)) = _
  exact congrArg (fun a => Ideal.div oneW (oneW + Ideal.exp (zeroW - a))) (score_apply s x p z)

/-- The second message's score of row p within a block, subtracted from the zero word. -/
theorem pay5_apply (s : Vec Ideal S8x1x512 .f32) (x : Vec Ideal S512x512 .f32) (p : Fin 512) (z : Fin 1) :
    k2_pay5 (F := Ideal) s x (ix2 p z)
      = zeroW - scoreOf (a := 512) (b := 512) x (totals (g := 8) (b := 512) s) p := by
  unfold k2_pay5 k2_pay3
  show zeroW - _ = _
  exact congrArg (fun a => zeroW - a) (score_apply s x p z)

/-- The body's value at (p, q): the two messages' entries there, each scaled by its row's weight, half their sum,
    rectified. The second weight arrives as the subtracted score and is finished here. -/
theorem pay1_apply (v11 v13 : FVec Ideal S512x512 .f32) (v36 v38 : FVec Ideal S512x1 .f32) (p q : Fin 512) :
    k2_pay1 (F := Ideal) v11 v13 v36 v38 (ix2 p q)
      = blend (v36 (ix2 p (0 : Fin 1))) (Ideal.div oneW (oneW + Ideal.exp (v38 (ix2 p (0 : Fin 1)))))
          (v11 (ix2 p q)) (v13 (ix2 p q)) := by
  unfold k2_pay1 blend
  show max ((broadcastTo S512x512 v36 broadcasts_S512x1_S512x512 (ix2 p q) * v11 (ix2 p q)
      + broadcastTo S512x512 _ broadcasts_S512x1_S512x512 (ix2 p q) * v13 (ix2 p q)) * halfW) zeroW = _
  refine congrArg (fun w => max (w * halfW) zeroW) ?_
  refine congrArg₂ (· + ·)
    (congrArg (· * v11 (ix2 p q)) (Cert.Lib.BroadcastReads.broadcastTo_a1_ab_apply (a := 512) (b := 512) v36 _ p q))
    (congrArg (· * v13 (ix2 p q)) ((Cert.Lib.BroadcastReads.broadcastTo_a1_ab_apply (a := 512) (b := 512) _ _ p q).trans rfl))

/-! ## Output window 4 -/

/-- What point `t` writes back through window 4 is block `t` of the layer's result computed from the whole messages
    and the totals of the whole arrays of partial sums. -/
theorem flushed_4_eq (c : Dev nD) (t : Fin cfg2.N) :
    (dat2 V c).flushed 4 t = ((cfg2.win 4).blk t).view.read (Elt Ideal)
      (combineWith (a := 4096) (b := 512) (V c main_v1_0) (V c main_v1_1)
        (totals (g := 8) (b := 512) (V c main_v1_2)) (totals (g := 8) (b := 512) (V c main_v1_3))) := by
  show (cfg2.win 4).cut (grid2.coords t) ((dat2 V c).after 4 t) = _
  rw [after2_4]
  unfold out2_4
  rw [View.canon_unit_zero hz]
  simp only [View.ld_unit_zero (S := S512x512) hz, View.ld_unit_zero (S := S8x1x512) hz3]
  obtain ⟨e0, e1⟩ := idx_4 t
  funext j
  obtain ⟨p, q, rfl⟩ : ∃ (p q : Fin 512), j = ix2 p q := ⟨j 0, j 1, eq_ix2 j⟩
  show k2_pay1 (k2_pay2 (iblk2 V c 0 t)) (k2_pay3 (iblk2 V c 1 t)) (k2_pay4 (iblk2 V c 2 t) (iblk2 V c 0 t))
      (k2_pay5 (iblk2 V c 3 t) (iblk2 V c 1 t)) (ix2 p q)
    = blend
        (logisticK (scoreOf (a := 4096) (b := 512) (V c main_v1_0) (totals (g := 8) (b := 512) (V c main_v1_2))
          ((((cfg2.win 4).blk t).view.emb (ix2 p q)) 0)))
        (logisticK (scoreOf (a := 4096) (b := 512) (V c main_v1_1) (totals (g := 8) (b := 512) (V c main_v1_3))
          ((((cfg2.win 4).blk t).view.emb (ix2 p q)) 0)))
        ((V c main_v1_0 : S4096x512.Idx → EReal) (((cfg2.win 4).blk t).view.emb (ix2 p q)))
        ((V c main_v1_1 : S4096x512.Idx → EReal) (((cfg2.win 4).blk t).view.emb (ix2 p q)))
  refine (pay1_apply _ _ _ _ p q).trans ?_
  have hrow : ((((cfg2.win 4).blk t).view.emb (ix2 p q)) 0).val = 512 * t.val + p.val := by
    show win2_4.index t 0 * 512 + 1 * p.val = 512 * t.val + p.val
    rw [e0]; omega
  have hcol : ((((cfg2.win 4).blk t).view.emb (ix2 p q)) 1).val = q.val := by
    show win2_4.index t 1 * 512 + 1 * q.val = q.val
    rw [e1]; omega
  refine congr (congr (congr (congrArg blend ?_) ?_) ?_) ?_
  · refine (pay4_apply _ _ p 0).trans (congrArg logisticK ?_)
    rw [totals_blk_2]
    exact score_blk_0 V c t _ p _ hrow
  · refine congrArg (fun a => Ideal.div oneW (oneW + Ideal.exp a)) ?_
    refine (pay5_apply _ _ p 0).trans (congrArg (fun a => zeroW - a) ?_)
    rw [totals_blk_3]
    exact score_blk_1 V c t _ p _ hrow
  · exact (congrFun (shapeCast_self _ _) _).trans (iblk_0_apply V c t (ix2 p q) _ hrow hcol)
  · exact (congrFun (shapeCast_self _ _) _).trans (iblk_1_apply V c t (ix2 p q) _ hrow hcol)

/-- An index of the array is in point `t`'s block of window 4 iff each coordinate is in the block's range. -/
theorem mem_blk_4 (t : Fin cfg2.N) (i : S4096x512.Idx) :
    i ∈ ((cfg2.win 4).blk t).view.set ↔ ∀ a : Fin 2, win2_4.index t a * S512x512.size a ≤ (i a).val
      ∧ (i a).val < win2_4.index t a * S512x512.size a + S512x512.size a := by
  show i ∈ ((View.whole main_v2).slice (win2_4.rect t)).set ↔ _
  rw [View.set_slice_whole, Rect.mem_set_unit]
  exact Iff.rfl

/-- Every row lies in the block of the point numbered by the row's quotient by 512: the blocks cover the array. -/
theorem cover_4 (i : S4096x512.Idx) :
    ∃ t : Fin cfg2.N, (cfg2.win 4).flush t = true ∧ i ∈ ((cfg2.win 4).blk t).view.set := by
  have hi0 : (i 0).val < 4096 := (i 0).isLt
  have hi1 : (i 1).val < 512 := (i 1).isLt
  have hN : cfg2.N = 8 := N_2
  have ht : (i 0).val / 512 < cfg2.N := by rw [hN]; omega
  refine ⟨⟨(i 0).val / 512, ht⟩, flush2_4 _, ?_⟩
  rw [mem_blk_4]
  obtain ⟨e0, e1⟩ := idx_4 ⟨(i 0).val / 512, ht⟩
  intro a
  match a with
  | ⟨0, _⟩ =>
    show win2_4.index ⟨(i 0).val / 512, ht⟩ 0 * 512 ≤ (i 0).val ∧ (i 0).val < win2_4.index ⟨(i 0).val / 512, ht⟩ 0 * 512 + 512
    rw [e0]; show (i 0).val / 512 * 512 ≤ (i 0).val ∧ (i 0).val < (i 0).val / 512 * 512 + 512; omega
  | ⟨1, _⟩ =>
    show win2_4.index ⟨(i 0).val / 512, ht⟩ 1 * 512 ≤ (i 1).val ∧ (i 1).val < win2_4.index ⟨(i 0).val / 512, ht⟩ 1 * 512 + 512
    rw [e1]; omega

/-- After the region, window 4's array is the layer's result from the two messages and the totals of their partial
    column sums. -/
theorem final_4 (c : Dev nD) : (dat2 V c).arrAt 4 cfg2.N
    = Cert.Layer.combineWith (a := 4096) (b := 512) (V c main_v1_0) (V c main_v1_1)
        (Cert.Layer.totals (g := 8) (b := 512) (V c main_v1_2)) (Cert.Layer.totals (g := 8) (b := 512) (V c main_v1_3)) :=
  (dat2 V c).arrAt_eq_of_cover 4 _ (fun t _ => flushed_4_eq V c t) cover_4

end Cert.KernelIdeal.Aggregate

end
-- ==== Proof.Whole.lean ====
/-
  The kernel program's result as one function of its arguments. The three regions run in a row, each entered with the
  contents the one before left: the first leaves the two features-times-weights products, the second multiplies each
  by its neighbourhood matrix and leaves the products with their partial column sums over the 8 row blocks, the third
  adds the partial sums and forms the weighted, rectified half-sum. Reading the boundary contents back region by region
  to the launch memory gives the result array as: the layer's combination of the two messages, with the column totals
  taken as sums of the partial sums. Two laws then identify it with the layer's specification: the partial sums over
  consecutive row blocks add up to the column sums (a finite sum regrouped), and subtracting from the zero word is
  negation. Neither needs finiteness.
-/
import proofs.«146514_g24807731102122_cont_sun_c4_61_5_alg».proof.Proof.Gen.KernelIdeal.Frame
import proofs.«146514_g24807731102122_cont_sun_c4_61_5_alg».proof.Proof.KernelRun
import proofs.«146514_g24807731102122_cont_sun_c4_61_5_alg».proof.Proof.Layer
import proofs.«146514_g24807731102122_cont_sun_c4_61_5_alg».proof.Proof.LayerParts
import proofs.«146514_g24807731102122_cont_sun_c4_61_5_alg».proof.Proof.Feature
import proofs.«146514_g24807731102122_cont_sun_c4_61_5_alg».proof.Proof.Neighbour
import proofs.«146514_g24807731102122_cont_sun_c4_61_5_alg».proof.Proof.Aggregate

set_option maxRecDepth 16384

noncomputable section

open Idealize.ShloMosaic Idealize.ShloMosaic.TcCoe Idealize.SL.Sem
open Idealize.ShloMosaic.Pipeline (Dat)

namespace Cert.KernelIdeal.Whole

open Cert.KernelIdeal Cert.KernelIdeal.Gen Cert.Layer

variable (m : (ℓ : Loc nD τ sig) → Buf (Elt Ideal) ℓ) (ρ : Dev nD → PrngReg)

/-! ## What the second region is entered with -/

/-- The first neighbourhood matrix is untouched by the first region. -/
theorem entry1_lap (c : Dev nD) : V1 m ρ c main_arg2 = m ((c : Thread nD τ).loc main_arg2) :=
  (W1_of_ne m ρ c main_arg2 (by decide)).trans rfl

/-- The second neighbourhood matrix is untouched by the first region. -/
theorem entry1_inc (c : Dev nD) : V1 m ρ c main_arg3 = m ((c : Thread nD τ).loc main_arg3) :=
  (W1_of_ne m ρ c main_arg3 (by decide)).trans rfl

/-- The first region leaves the first features-times-weights product. -/
theorem entry1_fw1 (c : Dev nD) : V1 m ρ c main_v0_0
    = mul (a := 4096) (k := 512) (b := 512) (m ((c : Thread nD τ).loc main_arg1)) (m ((c : Thread nD τ).loc main_arg4)) :=
  (W1_arr m ρ c 4).trans (Cert.KernelIdeal.Feature.final_4 (V0 m ρ) c)

/-- The first region leaves the second features-times-weights product. -/
theorem entry1_fw0 (c : Dev nD) : V1 m ρ c main_v0_1
    = mul (a := 4096) (k := 512) (b := 512) (m ((c : Thread nD τ).loc main_arg0)) (m ((c : Thread nD τ).loc main_arg5)) :=
  (W1_arr m ρ c 5).trans (Cert.KernelIdeal.Feature.final_5 (V0 m ρ) c)

/-! ## What the third region is entered with -/

/-- The first message, as the launch memory determines it. -/
abbrev msg1 (c : Dev nD) : Mat 4096 512 :=
  mul (a := 4096) (k := 4096) (b := 512) (m ((c : Thread nD τ).loc main_arg2))
    (mul (a := 4096) (k := 512) (b := 512) (m ((c : Thread nD τ).loc main_arg1)) (m ((c : Thread nD τ).loc main_arg4)))

/-- The second message, as the launch memory determines it. -/
abbrev msg0 (c : Dev nD) : Mat 4096 512 :=
  mul (a := 4096) (k := 4096) (b := 512) (m ((c : Thread nD τ).loc main_arg3))
    (mul (a := 4096) (k := 512) (b := 512) (m ((c : Thread nD τ).loc main_arg0)) (m ((c : Thread nD τ).loc main_arg5)))

theorem entry2_msg1 (c : Dev nD) : V2 m ρ c main_v1_0 = msg1 m c :=
  ((W2_arr m ρ c 4).trans (Cert.KernelIdeal.Neighbour.final_4 (V1 m ρ) c)).trans
    (congrArg₂ (mul (a := 4096) (k := 4096) (b := 512)) (entry1_lap m ρ c) (entry1_fw1 m ρ c))

theorem entry2_msg0 (c : Dev nD) : V2 m ρ c main_v1_1 = msg0 m c :=
  ((W2_arr m ρ c 5).trans (Cert.KernelIdeal.Neighbour.final_5 (V1 m ρ) c)).trans
    (congrArg₂ (mul (a := 4096) (k := 4096) (b := 512)) (entry1_inc m ρ c) (entry1_fw0 m ρ c))

theorem entry2_parts1 (c : Dev nD) : V2 m ρ c main_v1_2
    = partials (a := 4096) (b := 512) (g := 8) (h := 512) (by decide) (msg1 m c) :=
  ((W2_arr m ρ c 6).trans (Cert.KernelIdeal.Neighbour.final_6 (V1 m ρ) c)).trans
    (congrArg (partials (a := 4096) (b := 512) (g := 8) (h := 512) (by decide))
      (congrArg₂ (mul (a := 4096) (k := 4096) (b := 512)) (entry1_lap m ρ c) (entry1_fw1 m ρ c)))

theorem entry2_parts0 (c : Dev nD) : V2 m ρ c main_v1_3
    = partials (a := 4096) (b := 512) (g := 8) (h := 512) (by decide) (msg0 m c) :=
  ((W2_arr m ρ c 7).trans (Cert.KernelIdeal.Neighbour.final_7 (V1 m ρ) c)).trans
    (congrArg (partials (a := 4096) (b := 512) (g := 8) (h := 512) (by decide))
      (congrArg₂ (mul (a := 4096) (k := 4096) (b := 512)) (entry1_inc m ρ c) (entry1_fw0 m ρ c)))

/-! ## The result -/

/-- The result array after the last region is the layer of the launch memory's arguments. -/
theorem result (c : Dev nD) : (dat2 (V2 m ρ) c).arrAt 4 cfg2.N
    = layer (n := 4096) (c := 512) (m ((c : Thread nD τ).loc main_arg0)) (m ((c : Thread nD τ).loc main_arg1))
        (m ((c : Thread nD τ).loc main_arg2)) (m ((c : Thread nD τ).loc main_arg3))
        (m ((c : Thread nD τ).loc main_arg4)) (m ((c : Thread nD τ).loc main_arg5)) := by
  refine (Cert.KernelIdeal.Aggregate.final_4 (V2 m ρ) c).trans ?_
  rw [entry2_msg1 m ρ c, entry2_msg0 m ρ c, entry2_parts1 m ρ c, entry2_parts0 m ρ c,
    totals_partials, totals_partials, combineWith_colSum]
  rfl

/-- Every weakly fair execution of the kernel program terminates without a fault, with the result array at the layer
    of the arguments and the arguments as launched. -/
theorem run : θ_run defs (onTc (τ := τ) (main (F := Ideal))) ⟨m, fun _ => 0, ρ⟩ (fun r => ∀ c : Dev nD,
      r.2.mem ((c.tc : Thread nD τ).loc main_v2)
        = layer (n := 4096) (c := 512) (m ((c : Thread nD τ).loc main_arg0)) (m ((c : Thread nD τ).loc main_arg1))
            (m ((c : Thread nD τ).loc main_arg2)) (m ((c : Thread nD τ).loc main_arg3))
            (m ((c : Thread nD τ).loc main_arg4)) (m ((c : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c).1.trans (result m ρ c), (h c).2⟩) (Cert.KernelIdeal.Run.run_result m ρ)

end Cert.KernelIdeal.Whole

end
-- ==== Proof.lean ====
/-
  The five claims of this certificate.

  The kernel is a simplicial-complex message-passing layer in three kernel regions: features times weights (twice),
  each product multiplied by a neighbourhood matrix with the column sums of the result taken over 8 blocks of 512 rows,
  and an aggregation that adds the partial sums, rectifies them, scores every row of a message against them, turns the
  score into a weight by the logistic function, and returns the rectified half-sum of the two weighted messages. The
  reference forms the same two messages by whole matrix products, sums each message's columns in one go, and scores
  with the factors of each product in the other order.

  On the extended reals the two results are one function of the six arguments (`Cert.Layer.layer`): the kernel's side
  by reading its three regions back to the launch memory, regrouping the partial column sums into the column sums and
  reading a subtraction from zero as a negation; the reference's side by reading its operations one at a time, dropping
  a leading zero and commuting the products in the score. Only commutativity and associativity of sums and products and
  0 + x = x are used, which hold at the infinities too, so the precondition is never opened for the values.

  The frames of both kernel programs are the generated ones; the reference's frame is its generated run with the
  result dropped. The kernel's idealization removed four round trips through a narrower float format, each the
  identity on the extended reals.
-/
import proofs.«146514_g24807731102122_cont_sun_c4_61_5_alg».proof.Defs
import proofs.«146514_g24807731102122_cont_sun_c4_61_5_alg».proof.Proof.Gen.Kernel
import proofs.«146514_g24807731102122_cont_sun_c4_61_5_alg».proof.Proof.Gen.Kernel.Skeleton
import proofs.«146514_g24807731102122_cont_sun_c4_61_5_alg».proof.Proof.Gen.Kernel.Launch
import proofs.«146514_g24807731102122_cont_sun_c4_61_5_alg».proof.Proof.Gen.Kernel.Points
import proofs.«146514_g24807731102122_cont_sun_c4_61_5_alg».proof.Proof.Gen.Kernel.Frame
import proofs.«146514_g24807731102122_cont_sun_c4_61_5_alg».proof.Proof.Gen.KernelIdeal
import proofs.«146514_g24807731102122_cont_sun_c4_61_5_alg».proof.Proof.Gen.KernelIdeal.Skeleton
import proofs.«146514_g24807731102122_cont_sun_c4_61_5_alg».proof.Proof.Gen.KernelIdeal.Launch
import proofs.«146514_g24807731102122_cont_sun_c4_61_5_alg».proof.Proof.Gen.KernelIdeal.Points
import proofs.«146514_g24807731102122_cont_sun_c4_61_5_alg».proof.Proof.Gen.KernelIdeal.Frame
import proofs.«146514_g24807731102122_cont_sun_c4_61_5_alg».proof.Proof.Gen.ReferenceIdeal
import proofs.«146514_g24807731102122_cont_sun_c4_61_5_alg».proof.Proof.Gen.Pre_finite_inputs
import proofs.«146514_g24807731102122_cont_sun_c4_61_5_alg».proof.Proof.Gen.ReferenceIdeal.Read
import proofs.«146514_g24807731102122_cont_sun_c4_61_5_alg».proof.Proof.RefLayer
import proofs.«146514_g24807731102122_cont_sun_c4_61_5_alg».proof.Proof.Whole
import Idealize.ShloMosaic.Adequacy
import Idealize.ShloMosaic.Init

noncomputable section

namespace Cert.Proof

open Idealize.ShloMosaic Idealize.SL.Sem

theorem frame_kernel : @Cert.frame_Kernel Cert.Kernel.Gen.facts Cert.Pre_finite_inputs.Gen.facts :=
  fun m ρ _ => Cert.Kernel.Gen.frame m ρ

theorem frame_kernelIdeal : @Cert.frame_KernelIdeal Cert.KernelIdeal.Gen.facts Cert.Pre_finite_inputs.Gen.facts :=
  fun m ρ _ => Cert.KernelIdeal.Gen.frame m ρ

/-- The reference's frame: its run, with the result's value dropped. -/
theorem frame_reference : @Cert.frame_ReferenceIdeal Cert.ReferenceIdeal.Gen.facts Cert.Pre_finite_inputs.Gen.facts :=
  fun m ρ _ => (θ_run Cert.ReferenceIdeal.defs _ _).mono (fun _ h c => (h c).2.2)
    (Cert.ReferenceIdeal.Value.run (F := Ideal) m ρ)

/-- Each removed round trip through the narrower format is the identity on the extended reals, and the rounding it
    is at the word level. -/
theorem preserves : Cert.preserves_Kernel_KernelIdeal :=
  ⟨IdealRules.truncf_extf.statement _ .f32 .bf16, IdealRules.truncf_extf.statement _ .f32 .bf16,
   IdealRules.truncf_extf.statement _ .f32 .bf16, IdealRules.truncf_extf.statement _ .f32 .bf16⟩

/-- Both idealized programs end with the layer of the arguments in their result array. -/
theorem algebraic : @Cert.algebraic_KernelIdeal_ReferenceIdeal Cert.KernelIdeal.Gen.facts Cert.ReferenceIdeal.Gen.facts
    Cert.Pre_finite_inputs.Gen.facts := by
  intro m ρ m' ρ' _ hagree
  refine ⟨fun c => m ((c.tc : Thread Cert.KernelIdeal.nD Cert.KernelIdeal.τ).loc Cert.KernelIdeal.main_arg0),
    fun c => Cert.Layer.layer (n := 4096) (c := 512)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono (fun _ h c => ⟨(h c).2.1, (h c).1, (h c).2⟩)
      (Cert.KernelIdeal.Whole.run m ρ)
  · refine (θ_run Cert.ReferenceIdeal.defs _ _).mono (fun _ h c => ⟨(h c).1.trans (hagree c).1, ?_, (h c).2.2⟩)
      (Cert.ReferenceIdeal.Value.run (F := Ideal) m' ρ')
    refine (h c).2.1.trans ((Cert.ReferenceIdeal.Read.val_main_v35_eq _ _ _ _ _ _).trans
      ((Cert.ReferenceIdeal.RefValue.result_eq _ _ _ _ _ _).trans ?_))
    rw [(hagree c).1, (hagree c).2.1, (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
